-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20x32768x2 : Shape := ⟨3, ![20, 32768, 2]⟩
abbrev S256x2 : Shape := ⟨2, ![256, 2]⟩
abbrev S1x1024 : Shape := ⟨2, ![1, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S20x32768x2 : S_.BroadcastsInDim S20x32768x2 (![] : Fin 0 → Fin S20x32768x2.rank)
  reducesTo_S20x32768x2_S_d0_1_2 : S20x32768x2.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_arg9 : FVec F S1 .f32) (main_arg10 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S1024 .f32) (main_arg6 : FVec F S1024 .f32) (main_arg7 : FVec F S1024x1 .f32) (main_arg8 : FVec F S1 .f32) (main_arg9 : FVec F S1 .f32) (main_arg10 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1 .f32 := Host.absf main_arg7
  let main_cst_10 : FVec F S_ .f32 := constant S_ .f32 0x7F800000#32
  let main_v30 : FVec F S1024x1 .f32 := broadcastInDim S1024x1 ![] bcast_S_S1024x1 main_cst_10
  let main_v31 : IVec S1024x1 1 := cmpf .olt main_v29 main_v30
  let main_c_11 : IVec S_ 1 := constantI S_ 1 1#1
  let main_v32 : IVec S_ 1 := (fun x v => Host.reduce IntOp.andi x v reducesTo_S1024x1_S_d0_1 h_S_) main_v31 main_c_11
  let main_v33 : IVec S_ 1 := andi main_v28 main_v32
  fn_part2 (F := F) main_arg8 main_arg9 main_arg10 main_v33

def fn {F : FTy → Type} [FloatOps F] (main_arg0 : FVec F S20x32768x2 .f32) (main_arg1 : FVec F S20x32768x2 .f32) (main_arg2 : IVec S256x2 32) (main_arg3 : FVec F S1x1024 .f32) (main_arg4 : FVec F S1024 .f32) (main_arg5 : FVec F S1024 .f32) (main_arg6 : FVec F S1024 .f32) (main_arg7 : FVec F S1024x1 .f32) (main_arg8 : FVec F S1 .f32) (main_arg9 : FVec F S1 .f32) (main_arg10 : FVec F S1 .f32) : IVec S_ 1 :=
  let main_v0 : FVec F S20x32768x2 .f32 := Host.absf main_arg0
  let main_cst : FVec F S_ .f32 := constant S_ .f32 0x7F800000#32
  let main_v1 : FVec F S20x32768x2 .f32 := broadcastInDim S20x32768x2 ![] bcast_S_S20x32768x2 main_cst
  let main_v2 : IVec S20x32768x2 1 := cmpf .olt main_v0 main_v1
  let main_c : IVec S_ 1 := constantI S_ 1 1#1
  let main_v3 : IVec S_ 1 := (fun x v => Host.reduce IntOp.andi x v reducesTo_S20x32768x2_S_d0_1_2 h_S_) main_v2 main_c
  let main_v4 : FVec F S20x32768x2 .f32 := Host.absf main_arg1
  let main_cst_0 : FVec F S_ .f32 := constant S_ .f32 0x7F800000#32
  let main_v5 : FVec F S20x32768x2 .f32 := broadcastInDim S20x32768x2 ![] bcast_S_S20x32768x2 main_cst_0
  let main_v6 : IVec S20x32768x2 1 := cmpf .olt main_v4 main_v5
  let main_c_1 : IVec S_ 1 := constantI S_ 1 1#1
  let main_v7 : IVec S_ 1 := (fun x v => Host.reduce IntOp.andi x v reducesTo_S20x32768x2_S_d0_1_2 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_arg7 main_arg8 main_arg9 main_arg10 main_v13 main_v16
-- ==== Kernel.lean ====
abbrev S20x32768x2 : Shape := ⟨3, ![20, 32768, 2]⟩
abbrev S256x2 : Shape := ⟨2, ![256, 2]⟩
abbrev S1x1024 : Shape := ⟨2, ![1, 1024]⟩
abbrev S1024 : Shape := ⟨1, ![1024]⟩
abbrev S1024x1 : Shape := ⟨2, ![1024, 1]⟩
abbrev S1 : Shape := ⟨1, ![1]⟩
abbrev S20x256x128x2 : Shape := ⟨4, ![20, 256, 128, 2]⟩
abbrev S20x2x256x128 : Shape := ⟨4, ![20, 2, 256, 128]⟩
abbrev S256x128 : Shape := ⟨2, ![256, 128]⟩
abbrev S20x2x32x128 : Shape := ⟨4, ![20, 2, 32, 128]⟩
abbrev S32x128 : Shape := ⟨2, ![32, 128]⟩
abbrev S1x2x32x128 : Shape := ⟨4, ![1, 2, 32, 128]⟩
abbrev S2x32x128 : Shape := ⟨3, ![2, 32, 128]⟩
abbrev S1x32x128 : Shape := ⟨3, ![1, 32, 128]⟩
abbrev S32x128x1 : Shape := ⟨3, ![32, 128, 1]⟩
abbrev S32x1x128 : Shape := ⟨3, ![32, 1, 128]⟩
abbrev S32x128x128 : Shape := ⟨3, ![32, 128, 128]⟩
abbrev S32768x1 : Shape := ⟨2, ![32768, 1]⟩
abbrev S32768x1024 : Shape := ⟨2, ![32768, 1024]⟩
abbrev S_ : Shape := ⟨0, ![]⟩
abbrev S1x1 : Shape := ⟨2, ![1, 1]⟩

abbrev nBuf : Space → Nat
  | .hbm => 117
  | .vmem => 4
  | .smem => 0
  | _ => 0

abbrev bufTy : (tb : Table) → Fin (tcTables nBuf tb) → BufTy
  | .hbm, ⟨0, _⟩ => ⟨S20x32768x2, .f32⟩
  | .hbm, ⟨1, _⟩ => ⟨S20x32768x2, .f32⟩
  | .hbm, ⟨2, _⟩ => ⟨S256x2, .i32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S20x256x128x2, .f32⟩
  | .hbm, ⟨12, _⟩ => ⟨S20x2x256x128, .f32⟩
  | .hbm, ⟨13, _⟩ => ⟨S256x128, .f32⟩
  | .hbm, ⟨14, _⟩ => ⟨S32768x1, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S_, .i32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1x1024, .f32⟩
  | .hbm, ⟨48, _⟩ => ⟨S32768x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S1x1024, .f32⟩
  | .hbm, ⟨58, _⟩ => ⟨S32768x1024, .f32⟩
  | .hbm, ⟨59, _⟩ => ⟨S32768x1024, .f32⟩
  | .hbm, ⟨60, _⟩ => ⟨S1x1024, .f32⟩
  | .hbm, ⟨61, _⟩ => ⟨S32768x1024, .f32⟩
  | .hbm, ⟨62, _⟩ => ⟨S32768x1024, .f32⟩
  | .hbm, ⟨63, _⟩ => ⟨S_, .f32⟩
  | .hbm, ⟨64, _⟩ => ⟨S32768x1024, .f32⟩
  | .hbm, ⟨65, _⟩ => ⟨S32768x1024, .f32⟩
  | .hbm, ⟨66, _⟩ => ⟨S32768x1, .f32⟩
  | .hbm, ⟨67, _⟩ => ⟨S1x1, .f32⟩
  | .hbm, ⟨68, _⟩ => ⟨S32768x1, .f32⟩
  | .hbm, ⟨69, _⟩ => ⟨S32768x1, .f32⟩
  | .hbm, ⟨70, _⟩ => ⟨S_, .f32⟩
  | .hbm, ⟨71, _⟩ => ⟨S1, .f32⟩
  | .hbm, ⟨72, _⟩ => ⟨S_, .f32⟩
  | .hbm, ⟨73, _⟩ => ⟨S1, .f32⟩
  | .hbm, ⟨74, _⟩ => ⟨S1, .f32⟩
  | .hbm, ⟨75, _⟩ => ⟨S_, .i32⟩
  | .hbm, ⟨76, _⟩ => ⟨S_, .f32⟩
  | .hbm, ⟨77, _⟩ => ⟨S1, .f32⟩
  | .hbm, ⟨78, _⟩ => ⟨S1x1, .f32⟩
  | .hbm, ⟨79, _⟩ => ⟨S_, .f32⟩
  | .hbm, ⟨80, _⟩ => ⟨S1x1, .f32⟩
  | .hbm, ⟨81, _⟩ => ⟨S1x1, .f32⟩
  | .hbm, ⟨82, _⟩ => ⟨S32768x1, .f32⟩
  | .hbm, ⟨83, _⟩ => ⟨S32768x1, .f32⟩
  | .hbm, ⟨84, _⟩ => ⟨S32768x1, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S1, .f32⟩
  | .hbm, ⟨90, _⟩ => ⟨S1, .f32⟩
  | .hbm, ⟨91, _⟩ => ⟨S1, .f32⟩
  | .hbm, ⟨92, _⟩ => ⟨S_, .f32⟩
  | .hbm, ⟨93, _⟩ => ⟨S_, .i1⟩
  | .hbm, ⟨94, _⟩ => ⟨S_, .f32⟩
  | .hbm, ⟨95, _⟩ => ⟨S_, .f32⟩
  | .hbm, ⟨96, _⟩ => ⟨S1, .f32⟩
  | .hbm, ⟨97, _⟩ => ⟨S1, .f32⟩
  | .hbm, ⟨98, _⟩ => ⟨S1x1, .f32⟩
  | .hbm, ⟨99, _⟩ => ⟨S32768x1, .f32⟩
  | .hbm, ⟨100, _⟩ => ⟨S32768x1, .f32⟩
  | .hbm, ⟨101, _⟩ => ⟨S1x1, .f32⟩
  | .hbm, ⟨102, _⟩ => ⟨S32768x1, .f32⟩
  | .hbm, ⟨103, _⟩ => ⟨S32768x1, .f32⟩
  | .hbm, ⟨104, _⟩ => ⟨S_, .f32⟩
  | .hbm, ⟨105, _⟩ => ⟨S1, .f32⟩
  | .hbm, ⟨106, _⟩ => ⟨S1, .f32⟩
  | .hbm, ⟨107, _⟩ => ⟨S1, .f32⟩
  | .hbm, ⟨108, _⟩ => ⟨S1x1, .f32⟩
  | .hbm, ⟨109, _⟩ => ⟨S32768x1, .f32⟩
  | .hbm, ⟨110, _⟩ => ⟨S32768x1, .f32⟩
  | .hbm, ⟨111, _⟩ => ⟨S1x1, .f32⟩
  | .hbm, ⟨112, _⟩ => ⟨S32768x1, .f32⟩
  | .hbm, ⟨113, _⟩ => ⟨S32768x1, .f32⟩
  | .hbm, ⟨114, _⟩ => ⟨S_, .f32⟩
  | .hbm, ⟨115, _⟩ => ⟨S32768x1, .f32⟩
  | .hbm, ⟨116, _⟩ => ⟨S32768x1, .f32⟩
  | .local _ .vmem, ⟨0, _⟩ => ⟨S20x2x32x128, .f32⟩
  | .local _ .vmem, ⟨1, _⟩ => ⟨S20x2x32x128, .f32⟩
  | .local _ .vmem, ⟨2, _⟩ => ⟨S32x128, .f32⟩
  | .local _ .vmem, ⟨3, _⟩ => ⟨S32x128, .f32⟩
  | _, _ => ⟨S20x32768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_cst_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_cst_3 : Ref sig .tc := ⟨.hbm, 41, rfl⟩
abbrev main_call0_v12 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_1 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_call1_cst : Ref sig .tc := ⟨.hbm, 63, rfl⟩
abbrev main_call1_v0 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_2 : Ref sig .tc := ⟨.hbm, 70, rfl⟩
abbrev main_v32 : Ref sig .tc := ⟨.hbm, 71, rfl⟩
abbrev main_cst_3 : Ref sig .tc := ⟨.hbm, 72, rfl⟩
abbrev main_v33 : Ref sig .tc := ⟨.hbm, 73, rfl⟩
abbrev main_v34 : Ref sig .tc := ⟨.hbm, 74, rfl⟩
abbrev main_c_4 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_cst_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_cst_1 : Ref sig .tc := ⟨.hbm, 86, rfl⟩
abbrev main_call2_v8 : Ref sig .tc := ⟨.hbm, 87, rfl⟩
abbrev main_call2_cst_2 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_cst_3 : Ref sig .tc := ⟨.hbm, 92, rfl⟩
abbrev main_call2_v12 : Ref sig .tc := ⟨.hbm, 93, rfl⟩
abbrev main_call2_cst_4 : Ref sig .tc := ⟨.hbm, 94, rfl⟩
abbrev main_call2_call0_v0 : Ref sig .tc := ⟨.hbm, 95, rfl⟩
abbrev main_call2_call0_v1 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_cst_5 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_call3_cst : Ref sig .tc := ⟨.hbm, 114, rfl⟩
abbrev main_call3_v0 : Ref sig .tc := ⟨.hbm, 115, rfl⟩
abbrev main_v51 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c20_i32 : BitVec 32 := 20#32
  let v1 : BitVec 32 := Scalar.addi c0_i32 c20_i32
  let c1_i32 : BitVec 32 := 1#32
  ⟨c0_i32, v1, c1_i32⟩
def k0_off1 (k0_t1 : Fin k0_t1_loop.trips) : Fin 4 → Nat :=
  let c0_i32 : BitVec 32 := 0#32
  let c1_i32 : BitVec 32 := 1#32
  let arg3 : BitVec 32 := Scf.iv c0_i32 c1_i32 k0_t1
  let v10 : Index := Scalar.indexCast arg3
  let c0_4 : Index := 0#32
  let c0_5 : Index := 0#32
  let c0_6 : Index := 0#32
  ![v10.toNat, 0, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20x2x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S20x32768x2_S20x256x128x2 : S20x32768x2.ShapeCasts S20x256x128x2
  transposes_S20x256x128x2_S20x2x256x128_0_3_1_2 : S20x256x128x2.Transposes [0, 3, 1, 2] S20x2x256x128
  h_S1x2x32x128 : 0 < S1x2x32x128.numel
  shapeCasts_S1x2x32x128_S2x32x128 : S1x2x32x128.ShapeCasts S2x32x128
  slices_S2x32x128_o0_0_0_S1x32x128 : S2x32x128.Slices ![0, 0, 0] S1x32x128
  shapeCasts_S1x32x128_S32x128 : S1x32x128.ShapeCasts S32x128
  slices_S2x32x128_o1_0_0_S1x32x128 : S2x32x128.Slices ![1, 0, 0] S1x32x128
  shapeCasts_S32x128_S32x128x1 : S32x128.ShapeCasts S32x128x1
  shapeCasts_S32x128_S32x1x128 : S32x128.ShapeCasts S32x1x128
  broadcasts_S32x128x1_S32x128x128 : S32x128x1.Broadcasts S32x128x128
  broadcasts_S32x1x128_S32x128x128 : S32x1x128.Broadcasts S32x128x128
  reduces_S32x128x128_S32x128 : S32x128x128.Reduces [2] S32x128
  natLt_1_32 : 1 < 32
  inb_S32x128_S32x128_0_0 : ∀ a, (![0, 0] : Fin 2 → Nat) a + S32x128.size a ≤ S32x128.size a
  h_S32x128 : 0 < S32x128.numel
  shapeCasts_S256x128_S32768x1 : S256x128.ShapeCasts S32768x1
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  reducesTo_S32768x1024_S1024_d0 : S32768x1024.ReducesTo [0] S1024
  h_S_ : 0 < S_.numel
  bcast_S_S1024 : S_.BroadcastsInDim S1024 (![] : Fin 0 → Fin S1024.rank)
  bcast_S_S1x1024 : S_.BroadcastsInDim S1x1024 (![] : Fin 0 → Fin S1x1024.rank)
  bcast_S_S32768x1024 : S_.BroadcastsInDim S32768x1024 (![] : Fin 0 → Fin S32768x1024.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S1_d0 : S32768x1.ReducesTo [0] S1
  bcast_S_S1 : S_.BroadcastsInDim S1 (![] : Fin 0 → Fin S1.rank)
  bcast_S_S1x1 : S_.BroadcastsInDim S1x1 (![] : Fin 0 → Fin S1x1.rank)
  bcast_S_S32768x1 : S_.BroadcastsInDim S32768x1 (![] : Fin 0 → Fin S32768x1.rank)
  dot_S32768x1_S1x1024_S32768x1024_1_0_0_1_n_n_wf : DotDims.WF S32768x1 S1x1024 S32768x1024 [1] [0] [0] [1] [] []
  dot_S32768x1024_S1024x1_S32768x1_1_0_0_1_n_n_wf : DotDims.WF S32768x1024 S1024x1 S32768x1 [1] [0] [0] [1] [] []
  hrank0 : 0 < grid0.rank
  k0_t1_ok : k0_t1_loop.OK
  k0_off1_inb : ∀ k0_t1 : Fin k0_t1_loop.trips, ∀ a, (k0_off1 k0_t1) a + S1x2x32x128.size a ≤ S20x2x32x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20x2x32x128.size a ≤ S20x2x256x128.size a
  hwx0_0 : ∀ i : grid0.Coords, EltTy.bits .f32 = 32 ∨ (Rect.block (s := S20x2x256x128) S20x2x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S256x128.size a
  hwx0_1 : ∀ i : grid0.Coords, EltTy.bits .f32 = 32 ∨ (Rect.block (s := S256x128) S32x128.size (cc0_transform_1 i) (hinb0_1 i)).WholeWords (EltTy.packing .f32)

variable [Facts₀]

def dot_S32768x1_S1x1024_S32768x1024_1_0_0_1_n_n : DotDims S32768x1 S1x1024 S32768x1024 where
  lhsContracting := [1]
  rhsContracting := [0]
  lhsNonContracting := [0]
  rhsNonContracting := [1]
  lhsBatch := []
  rhsBatch := []
  wf := dot_S32768x1_S1x1024_S32768x1024_1_0_0_1_n_n_wf
def dot_S32768x1024_S1024x1_S32768x1_1_0_0_1_n_n : DotDims S32768x1024 S1024x1 S32768x1 where
  lhsContracting := [1]
  rhsContracting := [0]
  lhsNonContracting := [0]
  rhsNonContracting := [1]
  lhsBatch := []
  rhsBatch := []
  wf := dot_S32768x1024_S1024x1_S32768x1_1_0_0_1_n_n_wf

abbrev win0_0 : Pipeline.Window sig grid0 :=
  Pipeline.Window.ofSpec (Memref.whole main_v1) S20x2x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S20x32768x2 : Shape := ⟨3, ![20, 32768, 2]⟩
abbrev S256x2 : Shape := ⟨2, ![256, 2]⟩
abbrev S1x1024 : Shape := ⟨2, ![1, 1024]⟩
abbrev S1024 : Shape := ⟨1, ![1024]⟩
abbrev S1024x1 : Shape := ⟨2, ![1024, 1]⟩
abbrev S1 : Shape := ⟨1, ![1]⟩
abbrev S20x256x128x2 : Shape := ⟨4, ![20, 256, 128, 2]⟩
abbrev S20x256x128x1x2 : Shape := ⟨5, ![20, 256, 128, 1, 2]⟩
abbrev S20x256x1x128x2 : Shape := ⟨5, ![20, 256, 1, 128, 2]⟩
abbrev S20x256x128x128x2 : Shape := ⟨5, ![20, 256, 128, 128, 2]⟩
abbrev S_ : Shape := ⟨0, ![]⟩
abbrev S20x256x128x128 : Shape := ⟨4, ![20, 256, 128, 128]⟩
abbrev S20x256x128 : Shape := ⟨3, ![20, 256, 128]⟩
abbrev S256x128 : Shape := ⟨2, ![256, 128]⟩
abbrev S32768 : Shape := ⟨1, ![32768]⟩
abbrev S32768x1 : Shape := ⟨2, ![32768, 1]⟩
abbrev S32768x1024 : Shape := ⟨2, ![32768, 1024]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S20x32768x2, .f32⟩
  | 1 => ⟨S20x32768x2, .f32⟩
  | 2 => ⟨S256x2, .i32⟩
  | 3 => ⟨S1x1024, .f32⟩
  | 4 => ⟨S1024, .f32⟩
  | 5 => ⟨S1024, .f32⟩
  | 6 => ⟨S1024, .f32⟩
  | 7 => ⟨S1024x1, .f32⟩
  | 8 => ⟨S1, .f32⟩
  | 9 => ⟨S1, .f32⟩
  | 10 => ⟨S1, .f32⟩
  | 11 => ⟨S20x256x128x2, .f32⟩
  | 12 => ⟨S20x256x128x1x2, .f32⟩
  | 13 => ⟨S20x256x1x128x2, .f32⟩
  | 14 => ⟨S20x256x128x128x2, .f32⟩
  | 15 => ⟨S20x256x128x128x2, .f32⟩
  | 16 => ⟨S20x256x128x128x2, .f32⟩
  | 17 => ⟨S20x256x128x128x2, .f32⟩
  | 18 => ⟨S_, .f32⟩
  | 19 => ⟨S20x256x128x128, .f32⟩
  | 20 => ⟨S20x256x128x128, .f32⟩
  | 21 => ⟨S_, .f32⟩
  | 22 => ⟨S20x256x128x128, .f32⟩
  | 23 => ⟨S20x256x128x128, .i1⟩
  | 24 => ⟨S_, .f32⟩
  | 25 => ⟨S_, .f32⟩
  | 26 => ⟨S20x256x128x128, .f32⟩
  | 27 => ⟨S20x256x128x128, .f32⟩
  | 28 => ⟨S_, .f32⟩
  | 29 => ⟨S20x256x128, .f32⟩
  | 30 => ⟨S_, .f32⟩
  | 31 => ⟨S256x128, .f32⟩
  | 32 => ⟨S_, .f32⟩
  | 33 => ⟨S256x128, .f32⟩
  | 34 => ⟨S256x128, .i1⟩
  | 35 => ⟨S256x128, .f32⟩
  | 36 => ⟨S32768, .f32⟩
  | 37 => ⟨S_, .f32⟩
  | 38 => ⟨S32768, .f32⟩
  | 39 => ⟨S32768, .f32⟩
  | 40 => ⟨S32768x1, .f32⟩
  | 41 => ⟨S32768x1024, .f32⟩
  | 42 => ⟨S1x1024, .f32⟩
  | 43 => ⟨S32768x1024, .f32⟩
  | 44 => ⟨S32768x1024, .f32⟩
  | 45 => ⟨S_, .f32⟩
  | 46 => ⟨S1024, .f32⟩
  | 47 => ⟨S_, .f32⟩
  | 48 => ⟨S1024, .f32⟩
  | 49 => ⟨S1024, .f32⟩
  | 50 => ⟨S_, .i32⟩
  | 51 => ⟨S_, .f32⟩
  | 52 => ⟨S1024, .f32⟩
  | 53 => ⟨S1x1024, .f32⟩
  | 54 => ⟨S_, .f32⟩
  | 55 => ⟨S1x1024, .f32⟩
  | 56 => ⟨S1x1024, .f32⟩
  | 57 => ⟨S32768x1024, .f32⟩
  | 58 => ⟨S32768x1024, .f32⟩
  | 59 => ⟨S32768x1024, .f32⟩
  | 60 => ⟨S_, .f32⟩
  | 61 => ⟨S_, .f32⟩
  | 62 => ⟨S_, .f32⟩
  | 63 => ⟨S_, .f32⟩
  | 64 => ⟨S1024, .f32⟩
  | 65 => ⟨S1024, .f32⟩
  | 66 => ⟨S1024, .f32⟩
  | 67 => ⟨S_, .f32⟩
  | 68 => ⟨S_, .i1⟩
  | 69 => ⟨S_, .f32⟩
  | 70 => ⟨S_, .f32⟩
  | 71 => ⟨S1024, .f32⟩
  | 72 => ⟨S1024, .f32⟩
  | 73 => ⟨S1x1024, .f32⟩
  | 74 => ⟨S32768x1024, .f32⟩
  | 75 => ⟨S32768x1024, .f32⟩
  | 76 => ⟨S1x1024, .f32⟩
  | 77 => ⟨S32768x1024, .f32⟩
  | 78 => ⟨S32768x1024, .f32⟩
  | 79 => ⟨S_, .f32⟩
  | 80 => ⟨S1024, .f32⟩
  | 81 => ⟨S1024, .f32⟩
  | 82 => ⟨S1024, .f32⟩
  | 83 => ⟨S1x1024, .f32⟩
  | 84 => ⟨S32768x1024, .f32⟩
  | 85 => ⟨S32768x1024, .f32⟩
  | 86 => ⟨S1x1024, .f32⟩
  | 87 => ⟨S32768x1024, .f32⟩
  | 88 => ⟨S32768x1024, .f32⟩
  | 89 => ⟨S_, .f32⟩
  | 90 => ⟨S32768x1024, .f32⟩
  | 91 => ⟨S32768x1024, .f32⟩
  | 92 => ⟨S32768x1, .f32⟩
  | 93 => ⟨S1x1, .f32⟩
  | 94 => ⟨S32768x1, .f32⟩
  | 95 => ⟨S32768x1, .f32⟩
  | 96 => ⟨S_, .f32⟩
  | 97 => ⟨S1, .f32⟩
  | 98 => ⟨S_, .f32⟩
  | 99 => ⟨S1, .f32⟩
  | 100 => ⟨S1, .f32⟩
  | 101 => ⟨S_, .i32⟩
  | 102 => ⟨S_, .f32⟩
  | 103 => ⟨S1, .f32⟩
  | 104 => ⟨S1x1, .f32⟩
  | 105 => ⟨S_, .f32⟩
  | 106 => ⟨S1x1, .f32⟩
  | 107 => ⟨S1x1, .f32⟩
  | 108 => ⟨S32768x1, .f32⟩
  | 109 => ⟨S32768x1, .f32⟩
  | 110 => ⟨S32768x1, .f32⟩
  | 111 => ⟨S_, .f32⟩
  | 112 => ⟨S_, .f32⟩
  | 113 => ⟨S_, .f32⟩
  | 114 => ⟨S_, .f32⟩
  | 115 => ⟨S1, .f32⟩
  | 116 => ⟨S1, .f32⟩
  | 117 => ⟨S1, .f32⟩
  | 118 => ⟨S_, .f32⟩
  | 119 => ⟨S_, .i1⟩
  | 120 => ⟨S_, .f32⟩
  | 121 => ⟨S_, .f32⟩
  | 122 => ⟨S1, .f32⟩
  | 123 => ⟨S1, .f32⟩
  | 124 => ⟨S1x1, .f32⟩
  | 125 => ⟨S32768x1, .f32⟩
  | 126 => ⟨S32768x1, .f32⟩
  | 127 => ⟨S1x1, .f32⟩
  | _ => ⟨S20x32768x2, .f32⟩

abbrev hbmTy0_1 (i : Nat) : BufTy := match i % 128 with
  | 0 => ⟨S32768x1, .f32⟩
  | 1 => ⟨S32768x1, .f32⟩
  | 2 => ⟨S_, .f32⟩
  | 3 => ⟨S1, .f32⟩
  | 4 => ⟨S1, .f32⟩
  | 5 => ⟨S1, .f32⟩
  | 6 => ⟨S1x1, .f32⟩
  | 7 => ⟨S32768x1, .f32⟩
  | 8 => ⟨S32768x1, .f32⟩
  | 9 => ⟨S1x1, .f32⟩
  | 10 => ⟨S32768x1, .f32⟩
  | 11 => ⟨S32768x1, .f32⟩
  | 12 => ⟨S_, .f32⟩
  | 13 => ⟨S32768x1, .f32⟩
  | 14 => ⟨S32768x1, .f32⟩
  | _ => ⟨S20x32768x2, .f32⟩

abbrev hbmTy (i : Nat) : BufTy := match i / 128 with
  | 0 => hbmTy0_0 i
  | 1 => hbmTy0_1 i
  | _ => ⟨S20x32768x2, .f32⟩

abbrev bufTy : (tb : Table) → Fin (tcTables nBuf tb) → BufTy
  | .hbm, ⟨i, _⟩ => hbmTy i
  | _, _ => ⟨S20x32768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_cst_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_c : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_cst_3 : Ref sig .tc := ⟨.hbm, 67, rfl⟩
abbrev main_call1_v12 : Ref sig .tc := ⟨.hbm, 68, rfl⟩
abbrev main_call1_cst_4 : Ref sig .tc := ⟨.hbm, 69, rfl⟩
abbrev main_call1_call0_v0 : Ref sig .tc := ⟨.hbm, 70, rfl⟩
abbrev main_call1_call0_v1 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_cst_8 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_call2_cst : Ref sig .tc := ⟨.hbm, 89, rfl⟩
abbrev main_call2_v0 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_cst_9 : Ref sig .tc := ⟨.hbm, 96, rfl⟩
abbrev main_v49 : Ref sig .tc := ⟨.hbm, 97, rfl⟩
abbrev main_cst_10 : Ref sig .tc := ⟨.hbm, 98, rfl⟩
abbrev main_v50 : Ref sig .tc := ⟨.hbm, 99, rfl⟩
abbrev main_v51 : Ref sig .tc := ⟨.hbm, 100, rfl⟩
abbrev main_c_11 : Ref sig .tc := ⟨.hbm, 101, rfl⟩
abbrev main_call3_cst : Ref sig .tc := ⟨.hbm, 102, rfl⟩
abbrev main_call3_v0 : Ref sig .tc := ⟨.hbm, 103, rfl⟩
abbrev main_call3_v1 : Ref sig .tc := ⟨.hbm, 104, rfl⟩
abbrev main_call3_cst_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_v6 : Ref sig .tc := ⟨.hbm, 110, rfl⟩
abbrev main_call3_v7 : Ref sig .tc := ⟨.hbm, 111, rfl⟩
abbrev main_call3_cst_1 : Ref sig .tc := ⟨.hbm, 112, rfl⟩
abbrev main_call3_v8 : Ref sig .tc := ⟨.hbm, 113, rfl⟩
abbrev main_call3_cst_2 : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_call3_cst_3 : Ref sig .tc := ⟨.hbm, 118, rfl⟩
abbrev main_call3_v12 : Ref sig .tc := ⟨.hbm, 119, rfl⟩
abbrev main_call3_cst_4 : Ref sig .tc := ⟨.hbm, 120, rfl⟩
abbrev main_call3_call0_v0 : Ref sig .tc := ⟨.hbm, 121, rfl⟩
abbrev main_call3_call0_v1 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_cst_12 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_call4_cst : Ref sig .tc := ⟨.hbm, 140, rfl⟩
abbrev main_call4_v0 : Ref sig .tc := ⟨.hbm, 141, rfl⟩
abbrev main_v68 : Ref sig .tc := ⟨.hbm, 142, rfl⟩

abbrev nD : Nat := 1
abbrev τ : Topo := Topo.v7x

variable {F : FTy → Type} [FloatOps F]

class Facts₀ : Prop where
  shapeCasts_S20x32768x2_S20x256x128x2 : S20x32768x2.ShapeCasts S20x256x128x2
  bcast_S20x256x128x2_S20x256x128x1x2_0_1_2_4 : S20x256x128x2.BroadcastsInDim S20x256x128x1x2 (![0, 1, 2, 4] : Fin 4 → Fin S20x256x128x1x2.rank)
  bcast_S20x256x128x2_S20x256x1x128x2_0_1_3_4 : S20x256x128x2.BroadcastsInDim S20x256x1x128x2 (![0, 1, 3, 4] : Fin 4 → Fin S20x256x1x128x2.rank)
  bcast_S20x256x128x1x2_S20x256x128x128x2_0_1_2_3_4 : S20x256x128x1x2.BroadcastsInDim S20x256x128x128x2 (![0, 1, 2, 3, 4] : Fin 5 → Fin S20x256x128x128x2.rank)
  bcast_S20x256x1x128x2_S20x256x128x128x2_0_1_2_3_4 : S20x256x1x128x2.BroadcastsInDim S20x256x128x128x2 (![0, 1, 2, 3, 4] : Fin 5 → Fin S20x256x128x128x2.rank)
  reducesTo_S20x256x128x128x2_S20x256x128x128_d4 : S20x256x128x128x2.ReducesTo [4] S20x256x128x128
  h_S_ : 0 < S_.numel
  bcast_S_S20x256x128x128 : S_.BroadcastsInDim S20x256x128x128 (![] : Fin 0 → Fin S20x256x128x128.rank)
  reducesTo_S20x256x128x128_S20x256x128_d2 : S20x256x128x128.ReducesTo [2] S20x256x128
  reducesTo_S20x256x128_S256x128_d0 : S20x256x128.ReducesTo [0] S256x128
  bcast_S_S256x128 : S_.BroadcastsInDim S256x128 (![] : Fin 0 → Fin S256x128.rank)
  shapeCasts_S256x128_S32768 : S256x128.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  reducesTo_S32768x1024_S1024_d0 : S32768x1024.ReducesTo [0] S1024
  bcast_S_S1024 : S_.BroadcastsInDim S1024 (![] : Fin 0 → Fin S1024.rank)
  bcast_S_S1x1024 : S_.BroadcastsInDim S1x1024 (![] : Fin 0 → Fin S1x1024.rank)
  bcast_S_S32768x1024 : S_.BroadcastsInDim S32768x1024 (![] : Fin 0 → Fin S32768x1024.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S1_d0 : S32768x1.ReducesTo [0] S1
  bcast_S_S1 : S_.BroadcastsInDim S1 (![] : Fin 0 → Fin S1.rank)
  bcast_S_S1x1 : S_.BroadcastsInDim S1x1 (![] : Fin 0 → Fin S1x1.rank)
  bcast_S_S32768x1 : S_.BroadcastsInDim S32768x1 (![] : Fin 0 → Fin S32768x1.rank)
  dot_S32768x1_S1x1024_S32768x1024_1_0_0_1_n_n_wf : DotDims.WF S32768x1 S1x1024 S32768x1024 [1] [0] [0] [1] [] []
  dot_S32768x1024_S1024x1_S32768x1_1_0_0_1_n_n_wf : DotDims.WF S32768x1024 S1024x1 S32768x1 [1] [0] [0] [1] [] []

variable [Facts₀]

def dot_S32768x1_S1x1024_S32768x1024_1_0_0_1_n_n : DotDims S32768x1 S1x1024 S32768x1024 where
  lhsContracting := [1]
  rhsContracting := [0]
  lhsNonContracting := [0]
  rhsNonContracting := [1]
  lhsBatch := []
  rhsBatch := []
  wf := dot_S32768x1_S1x1024_S32768x1024_1_0_0_1_n_n_wf
def dot_S32768x1024_S1024x1_S32768x1_1_0_0_1_n_n : DotDims S32768x1024 S1024x1 S32768x1 where
  lhsContracting := [1]
  rhsContracting := [0]
  lhsNonContracting := [0]
  rhsNonContracting := [1]
  lhsBatch := []
  rhsBatch := []
  wf := dot_S32768x1024_S1024x1_S32768x1_1_0_0_1_n_n_wf

class Facts : Prop extends Facts₀ where

variable [Facts]
-- ==== Proof.AroundK.lean ====
/-
  The program around its one pipelined region, for any float instance: the buffer contents the region is entered
  with (the two layout operations before it applied to the launch memory), @main as "the lines before, the region,
  the lines after", and what the lines after the region may touch: they allocate nothing, stay within the unscoped
  buffers, and write neither the transposed trajectory the region reads nor the reward array it writes. No line of
  @main writes an argument array, so each argument is read back unchanged after the whole run.
-/
import proofs.«115439_j82222853915257_2_alg».proof.Proof.Gen.Kernel.Launch
import proofs.«115439_j82222853915257_2_alg».proof.Proof.Gen.Kernel.Skeleton
import proofs.«115439_j82222853915257_2_alg».proof.Proof.Gen.Kernel.Points
import proofs.«115439_j82222853915257_2_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the reshape and the transpose. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the region, stretch by stretch. -/
abbrev tailOps : List (List (HloOp τ sig (Elt F))) := [hostOps1, hostOps1_1, hostOps1_2, hostOps1_3, hostOps1_4, hostOps1_5, hostOps1_6, hostOps1_7]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor

set_option maxHeartbeats 4000000 in
/-- @main is the two lines before the region, the region, and the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7]) :=
  Pipeline.hmain_around cfgs 0 defs₀ 𝒱₀ m main [hostOps0] [hostOps1, hostOps1_1, hostOps1_2, hostOps1_3, hostOps1_4, hostOps1_5, hostOps1_6, hostOps1_7] (by simp only [List.Forall]; exact hostOps0_sub)
    (by simp only [List.Forall]; exact hostOps0_fresh) main_chain

/-- The lines after the region touch unscoped TensorCore buffers only. -/
theorem sfx_sub : ∀ ops ∈ ([hostOps1, hostOps1_1, hostOps1_2, hostOps1_3, hostOps1_4, hostOps1_5, hostOps1_6, hostOps1_7] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)

/-- They allocate nothing. -/
theorem sfx_fresh : ∀ ops ∈ ([hostOps1, hostOps1_1, hostOps1_2, hostOps1_3, hostOps1_4, hostOps1_5, hostOps1_6, hostOps1_7] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop

/-- No line after the region writes the transposed trajectory (the region's input array). -/
theorem tail_keeps_in : ∀ op ∈ (List.flatten [hostOps1, hostOps1_1, hostOps1_2, hostOps1_3, hostOps1_4, hostOps1_5, hostOps1_6, hostOps1_7] : List (HloOp τ sig (Elt F))), Proc.devRef .tc main_v1 ∉ op.writes :=
  (List.forall_iff_forall_mem.mp (by
    simp only [hostOps1, hostOps1_1, hostOps1_2, hostOps1_3, hostOps1_4, hostOps1_5, hostOps1_6, hostOps1_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes the reward array (the region's output array). -/
theorem tail_keeps_out : ∀ op ∈ (List.flatten [hostOps1, hostOps1_1, hostOps1_2, hostOps1_3, hostOps1_4, hostOps1_5, hostOps1_6, hostOps1_7] : List (HloOp τ sig (Elt F))), Proc.devRef .tc main_v2 ∉ op.writes :=
  (List.forall_iff_forall_mem.mp (by
    simp only [hostOps1, hostOps1_1, hostOps1_2, hostOps1_3, hostOps1_4, hostOps1_5, hostOps1_6, hostOps1_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- So they write no array of the pipeline. -/
theorem sfx_keeps : ∀ ops ∈ ([hostOps1, hostOps1_1, hostOps1_2, hostOps1_3, hostOps1_4, hostOps1_5, hostOps1_6, hostOps1_7] : List (List (HloOp τ sig (Elt F)))), ∀ op ∈ ops,
    ∀ w, Proc.devRef .tc (Pipeline.arrRef spec0 w) ∉ op.writes := by
  intro ops hops op hop w
  have hmem : op ∈ (List.flatten [hostOps1, hostOps1_1, hostOps1_2, hostOps1_3, hostOps1_4, hostOps1_5, hostOps1_6, hostOps1_7] : List (HloOp τ sig (Elt F))) := List.mem_flatten.mpr ⟨ops, hops, hop⟩
  fin_cases w
  · exact tail_keeps_in op hmem
  · exact tail_keeps_out op hmem

/-! ## The argument arrays are written by no line -/

/-- No line before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg0`: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No line before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg1`: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No line before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg2`: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No line before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg3`: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No line before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg4`: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No line before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg5`: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No line before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg6`: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No line before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg7`: it ends as launched. -/
theorem W_main_arg7 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No line before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg8`: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No line before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg9`: it ends as launched. -/
theorem W_main_arg9 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No line before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg10`: it ends as launched. -/
theorem W_main_arg10 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The input window's blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is
    the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The post of a frame run, read at the eleven argument arrays: none is an array of the pipeline, each is among
    the other unscoped buffers, which end as the lines after the region leave them — unchanged. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c)⟩) h

end Cert.Kernel.Around

end
-- ==== Proof.BodyK.lean ====
/-
  The kernel body at one grid point and the frame run of the program, for any float instance.

  At a grid point the body reads its input block (20 time steps of 2 coordinate planes of 32 scenes by 128
  pedestrians), folds the 20 steps into a running minimum carried in registers (the counted loop, through its
  invariant: the carried value before trip `k`), and stores ONE whole-block value into the output block: the
  reward computed from the running minimum after the last trip (`runMin`). The input block is left as found. With
  that, the pipeline's proof data name what every staging buffer holds after the body at each point, the body
  obligation holds at every point, and the library's frame run around the region gives the final memory: every
  array of the pipeline at what the write-backs leave, every other buffer as the lines after the region leave it.
-/
import proofs.«115439_j82222853915257_2_alg».proof.Proof.AroundK

set_option maxRecDepth 16384

noncomputable section

namespace Cert.Kernel.Body

open Cert.Kernel Cert.Kernel.Gen Cert.Kernel.Around
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole output block, as the body's one store addresses it. -/
abbrev r0 : Rect S32x128 := Rect.unit (s := S32x128) ![0, 0] S32x128.size inb_S32x128_S32x128_0_0

/-- The running minimum after the last trip of the loop over time, from the input block `x0`. -/
def runMin (c : Dev nD) (i : grid0.Coords) (arg1 : Memref sig .tc .vmem S20x2x32x128 .f32) (harg1 : arg1.IsWhole)
    (arg2 : Memref sig .tc .vmem S32x128 .f32) (harg2 : arg2.IsWhole) (x0 : Vec F S20x2x32x128 .f32) : FVec F S32x128 .f32 :=
  st_k0_t1 (F := F) Variants.none c none i arg1 harg1 arg2 harg2 (harg1.unread x0) k0_pay1
    (Scf.trips k0_t1_loop.lb k0_t1_loop.ub k0_t1_loop.st)

/-- What the body leaves in the output block: its one store, of the reward of the running minimum. -/
def out0_1 (c : Dev nD) (i : grid0.Coords) (arg1 : Memref sig .tc .vmem S20x2x32x128 .f32) (harg1 : arg1.IsWhole)
    (arg2 : Memref sig .tc .vmem S32x128 .f32) (harg2 : arg2.IsWhole) (x0 : Vec F S20x2x32x128 .f32) : Vec F S32x128 .f32 :=
  View.canon [⟨r0, k0_pay3 (runMin c i arg1 harg1 arg2 harg2 x0)⟩]

/-- The one store covers the block. -/
theorem cover0_1 (p0 : Vec F S32x128 .f32) (y : S32x128.Idx) :
    ∃ pc ∈ ([⟨r0, p0⟩] : List (View.Piece (Elt F) S32x128 .f32)), y ∈ pc.1.set :=
  View.cover_of_tiled [⟨r0, p0⟩] S32x128.size (by rfl) y

set_option maxHeartbeats 2000000 in
/-- The body on whole staging memrefs, the input's at the block `x0` and the output's at anything, runs to the
    continuation holding the input's as it was and the output's at `out0_1` of the input block. -/
theorem sound_kernel (c : Dev nD) (E : Set ℕ) (i : grid0.Coords) (arg1 : Memref sig .tc .vmem S20x2x32x128 .f32) (harg1 : arg1.IsWhole)
    (arg2 : Memref sig .tc .vmem S32x128 .f32) (harg2 : arg2.IsWhole) (x0 : Vec F S20x2x32x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 c i arg1 harg1 arg2 harg2 x0)) -∗ K ⟨⟩))
      ⊢ wp frame (wpE (defs₀ (F := F)) Variants.none c none) E (cc0__collision_kernel i arg1 harg1 arg2 harg2) K := by
  simp only [cc0__collision_kernel_eq_skeleton]; unfold cc0__collision_kernel_skel
  unfold owns
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread _
    iexact H0
  iexists _; isplitr
  swap; · iexact H1
  ipureintro
  exact View.read_writes_eq_canon _ _ _ (cover0_1 _)

/-! ## The pipeline's proof data -/

/-- The input window's and the output window's current staging memrefs at point `t`, with their wholeness. -/
abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)

/-- What the body leaves in the output block at point `t`. -/
def outAt (c : Dev nD) (t : Fin cfg0.N) : Vec F S32x128 .f32 :=
  out0_1 c (grid0.coords t) (st0_0 t) (hs0_0 t) (st0_1 t) (hs0_1 t) (iblk m c 0 t)

/-- The proof data of the pipeline on core `c`: the arrays as the region finds them; after the body at point `t`
    the input's buffer at its block and the output's at `outAt`; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ _ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
set_option maxHeartbeats 4000000 in
/-- Every weakly fair execution of @main terminates, and the final memory has every array of the pipeline at what
    the write-backs leave and every other unscoped buffer as the lines after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4, hostOps1_5, hostOps1_6, hostOps1_7])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7]) (hsub := sfx_sub) (hfresh := sfx_fresh) (hkeep := sfx_keeps)
    (hmain := hmain m Variants.none) (hA := A_eq m) (hΦ := fun _ _ => rfl)

/-- The frame: the program runs to the end and its eleven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (run_main m ρ)

end Cert.Kernel.Body

end
-- ==== Proof.AroundKI.lean ====
/-
  The program around its one pipelined region, for any float instance: the buffer contents the region is entered
  with (the two layout operations before it applied to the launch memory), @main as "the lines before, the region,
  the lines after", and what the lines after the region may touch: they allocate nothing, stay within the unscoped
  buffers, and write neither the transposed trajectory the region reads nor the reward array it writes. No line of
  @main writes an argument array, so each argument is read back unchanged after the whole run.
-/
import proofs.«115439_j82222853915257_2_alg».proof.Proof.Gen.KernelIdeal.Launch
import proofs.«115439_j82222853915257_2_alg».proof.Proof.Gen.KernelIdeal.Skeleton
import proofs.«115439_j82222853915257_2_alg».proof.Proof.Gen.KernelIdeal.Points
import proofs.«115439_j82222853915257_2_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the reshape and the transpose. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the region, stretch by stretch. -/
abbrev tailOps : List (List (HloOp τ sig (Elt F))) := [hostOps1, hostOps1_1, hostOps1_2, hostOps1_3, hostOps1_4, hostOps1_5, hostOps1_6, hostOps1_7]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor

set_option maxHeartbeats 4000000 in
/-- @main is the two lines before the region, the region, and the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7]) :=
  Pipeline.hmain_around cfgs 0 defs₀ 𝒱₀ m main [hostOps0] [hostOps1, hostOps1_1, hostOps1_2, hostOps1_3, hostOps1_4, hostOps1_5, hostOps1_6, hostOps1_7] (by simp only [List.Forall]; exact hostOps0_sub)
    (by simp only [List.Forall]; exact hostOps0_fresh) main_chain

/-- The lines after the region touch unscoped TensorCore buffers only. -/
theorem sfx_sub : ∀ ops ∈ ([hostOps1, hostOps1_1, hostOps1_2, hostOps1_3, hostOps1_4, hostOps1_5, hostOps1_6, hostOps1_7] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)

/-- They allocate nothing. -/
theorem sfx_fresh : ∀ ops ∈ ([hostOps1, hostOps1_1, hostOps1_2, hostOps1_3, hostOps1_4, hostOps1_5, hostOps1_6, hostOps1_7] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop

/-- No line after the region writes the transposed trajectory (the region's input array). -/
theorem tail_keeps_in : ∀ op ∈ (List.flatten [hostOps1, hostOps1_1, hostOps1_2, hostOps1_3, hostOps1_4, hostOps1_5, hostOps1_6, hostOps1_7] : List (HloOp τ sig (Elt F))), Proc.devRef .tc main_v1 ∉ op.writes :=
  (List.forall_iff_forall_mem.mp (by
    simp only [hostOps1, hostOps1_1, hostOps1_2, hostOps1_3, hostOps1_4, hostOps1_5, hostOps1_6, hostOps1_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes the reward array (the region's output array). -/
theorem tail_keeps_out : ∀ op ∈ (List.flatten [hostOps1, hostOps1_1, hostOps1_2, hostOps1_3, hostOps1_4, hostOps1_5, hostOps1_6, hostOps1_7] : List (HloOp τ sig (Elt F))), Proc.devRef .tc main_v2 ∉ op.writes :=
  (List.forall_iff_forall_mem.mp (by
    simp only [hostOps1, hostOps1_1, hostOps1_2, hostOps1_3, hostOps1_4, hostOps1_5, hostOps1_6, hostOps1_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- So they write no array of the pipeline. -/
theorem sfx_keeps : ∀ ops ∈ ([hostOps1, hostOps1_1, hostOps1_2, hostOps1_3, hostOps1_4, hostOps1_5, hostOps1_6, hostOps1_7] : List (List (HloOp τ sig (Elt F)))), ∀ op ∈ ops,
    ∀ w, Proc.devRef .tc (Pipeline.arrRef spec0 w) ∉ op.writes := by
  intro ops hops op hop w
  have hmem : op ∈ (List.flatten [hostOps1, hostOps1_1, hostOps1_2, hostOps1_3, hostOps1_4, hostOps1_5, hostOps1_6, hostOps1_7] : List (HloOp τ sig (Elt F))) := List.mem_flatten.mpr ⟨ops, hops, hop⟩
  fin_cases w
  · exact tail_keeps_in op hmem
  · exact tail_keeps_out op hmem

/-! ## The argument arrays are written by no line -/

/-- No line before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg0`: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No line before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg1`: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No line before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg2`: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No line before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg3`: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No line before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg4`: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No line before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg5`: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No line before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg6`: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No line before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg7`: it ends as launched. -/
theorem W_main_arg7 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No line before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg8`: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No line before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg9`: it ends as launched. -/
theorem W_main_arg9 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No line before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the region writes `main_arg10`: it ends as launched. -/
theorem W_main_arg10 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, hostOps1_1, hostOps1_2, hostOps1_3, hostOps1_4, hostOps1_5, hostOps1_6, hostOps1_7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The input window's blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is
    the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The post of a frame run, read at the eleven argument arrays: none is an array of the pipeline, each is among
    the other unscoped buffers, which end as the lines after the region leave them — unchanged. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c)⟩) h

end Cert.KernelIdeal.Around

end
-- ==== Proof.BodyKI.lean ====
/-
  The kernel body at one grid point and the frame run of the program, for any float instance.

  At a grid point the body reads its input block (20 time steps of 2 coordinate planes of 32 scenes by 128
  pedestrians), folds the 20 steps into a running minimum carried in registers (the counted loop, through its
  invariant: the carried value before trip `k`), and stores ONE whole-block value into the output block: the
  reward computed from the running minimum after the last trip (`runMin`). The input block is left as found. With
  that, the pipeline's proof data name what every staging buffer holds after the body at each point, the body
  obligation holds at every point, and the library's frame run around the region gives the final memory: every
  array of the pipeline at what the write-backs leave, every other buffer as the lines after the region leave it.
-/
import proofs.«115439_j82222853915257_2_alg».proof.Proof.AroundKI

set_option maxRecDepth 16384

noncomputable section

namespace Cert.KernelIdeal.Body

open Cert.KernelIdeal Cert.KernelIdeal.Gen Cert.KernelIdeal.Around
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole output block, as the body's one store addresses it. -/
abbrev r0 : Rect S32x128 := Rect.unit (s := S32x128) ![0, 0] S32x128.size inb_S32x128_S32x128_0_0

/-- The running minimum after the last trip of the loop over time, from the input block `x0`. -/
def runMin (c : Dev nD) (i : grid0.Coords) (arg1 : Memref sig .tc .vmem S20x2x32x128 .f32) (harg1 : arg1.IsWhole)
    (arg2 : Memref sig .tc .vmem S32x128 .f32) (harg2 : arg2.IsWhole) (x0 : Vec F S20x2x32x128 .f32) : FVec F S32x128 .f32 :=
  st_k0_t1 (F := F) Variants.none c none i arg1 harg1 arg2 harg2 (harg1.unread x0) k0_pay1
    (Scf.trips k0_t1_loop.lb k0_t1_loop.ub k0_t1_loop.st)

/-- What the body leaves in the output block: its one store, of the reward of the running minimum. -/
def out0_1 (c : Dev nD) (i : grid0.Coords) (arg1 : Memref sig .tc .vmem S20x2x32x128 .f32) (harg1 : arg1.IsWhole)
    (arg2 : Memref sig .tc .vmem S32x128 .f32) (harg2 : arg2.IsWhole) (x0 : Vec F S20x2x32x128 .f32) : Vec F S32x128 .f32 :=
  View.canon [⟨r0, k0_pay3 (runMin c i arg1 harg1 arg2 harg2 x0)⟩]

/-- The one store covers the block. -/
theorem cover0_1 (p0 : Vec F S32x128 .f32) (y : S32x128.Idx) :
    ∃ pc ∈ ([⟨r0, p0⟩] : List (View.Piece (Elt F) S32x128 .f32)), y ∈ pc.1.set :=
  View.cover_of_tiled [⟨r0, p0⟩] S32x128.size (by rfl) y

set_option maxHeartbeats 2000000 in
/-- The body on whole staging memrefs, the input's at the block `x0` and the output's at anything, runs to the
    continuation holding the input's as it was and the output's at `out0_1` of the input block. -/
theorem sound_kernel (c : Dev nD) (E : Set ℕ) (i : grid0.Coords) (arg1 : Memref sig .tc .vmem S20x2x32x128 .f32) (harg1 : arg1.IsWhole)
    (arg2 : Memref sig .tc .vmem S32x128 .f32) (harg2 : arg2.IsWhole) (x0 : Vec F S20x2x32x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 c i arg1 harg1 arg2 harg2 x0)) -∗ K ⟨⟩))
      ⊢ wp frame (wpE (defs₀ (F := F)) Variants.none c none) E (cc0__collision_kernel i arg1 harg1 arg2 harg2) K := by
  simp only [cc0__collision_kernel_eq_skeleton]; unfold cc0__collision_kernel_skel
  unfold owns
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread _
    iexact H0
  iexists _; isplitr
  swap; · iexact H1
  ipureintro
  exact View.read_writes_eq_canon _ _ _ (cover0_1 _)

/-! ## The pipeline's proof data -/

/-- The input window's and the output window's current staging memrefs at point `t`, with their wholeness. -/
abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)

/-- What the body leaves in the output block at point `t`. -/
def outAt (c : Dev nD) (t : Fin cfg0.N) : Vec F S32x128 .f32 :=
  out0_1 c (grid0.coords t) (st0_0 t) (hs0_0 t) (st0_1 t) (hs0_1 t) (iblk m c 0 t)

/-- The proof data of the pipeline on core `c`: the arrays as the region finds them; after the body at point `t`
    the input's buffer at its block and the output's at `outAt`; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ _ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
set_option maxHeartbeats 4000000 in
/-- Every weakly fair execution of @main terminates, and the final memory has every array of the pipeline at what
    the write-backs leave and every other unscoped buffer as the lines after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4, hostOps1_5, hostOps1_6, hostOps1_7])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7]) (hsub := sfx_sub) (hfresh := sfx_fresh) (hkeep := sfx_keeps)
    (hmain := hmain m Variants.none) (hA := A_eq m) (hΦ := fun _ _ => rfl)

/-- The frame: the program runs to the end and its eleven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (run_main m ρ)

end Cert.KernelIdeal.Body

end
-- ==== Proof.Spec.lean ====
/-
  The collision reward as ONE function of the trajectory array, index by index, on the extended reals.

  The trajectory `X` holds, for each of 20 time steps and each of 32768 pedestrians (256 scenes of 128), a point of
  the plane. For pedestrians `p`, `q` of one scene at one time, `dist` is their Euclidean distance, a distance of
  zero replaced by the threshold 1/4 (so a pedestrian is never in collision with itself). `nearest` is the least such
  distance over all times and all partners of the scene, and the reward of a pedestrian is 1 minus the indicator that
  this least distance is below the threshold. The distance is symmetric in the two pedestrians because a difference and
  its opposite have one square: this is the only law the two programs' different reduction axes need.
-/
import Idealize.ShloMosaic.PureOps.Ideal
import Idealize.ShloMosaic.Lib.ValueIdx

noncomputable section

namespace Cert.Collide

open Idealize.ShloMosaic Idealize.ShloMosaic.ValueIdx

/-- The trajectory array: time, pedestrian, coordinate. -/
abbrev SX : Shape := ⟨3, ![20, 32768, 2]⟩
/-- The reward column. -/
abbrev SR : Shape := ⟨2, ![32768, 1]⟩

/-- Pedestrian `p` of scene `s` in the flat batch of 256 · 128. -/
def ped (s : Fin 256) (p : Fin 128) : Fin 32768 := ⟨s.val * 128 + p.val, by omega⟩

/-- The threshold 1/4, the unit and zero, as both programs spell them. -/
abbrev thr : EReal := Ideal.ofBits .f32 0x3E800000#32
abbrev one : EReal := Ideal.ofBits .f32 0x3F800000#32
abbrev zero : EReal := Ideal.ofBits .f32 0x00000000#32

/-- A zero distance is replaced by the threshold. -/
def clampZero (d : EReal) : EReal := if d = zero then thr else d

/-- The distance from the two coordinate differences. -/
def norm2 (d0 d1 : EReal) : EReal := Ideal.sqrt (d0 * d0 + d1 * d1)

/-- The distance at time `t` between pedestrians `p` and `q` of scene `s`, zero replaced by the threshold. -/
def dist (X : SX.Idx → EReal) (t : Fin 20) (s : Fin 256) (p q : Fin 128) : EReal :=
  clampZero (norm2 (X (ix3 t (ped s p) 0) - X (ix3 t (ped s q) 0)) (X (ix3 t (ped s p) 1) - X (ix3 t (ped s q) 1)))

/-- A difference and the opposite difference have one square, on all of the extended reals. -/
theorem sub_mul_self_comm (a b : EReal) : (a - b) * (a - b) = (b - a) * (b - a) := by
  induction a using EReal.rec <;> induction b using EReal.rec <;>
    first
      | rfl
      | (simp only [← EReal.coe_sub, ← EReal.coe_mul]; congr 1; ring)
      | simp [EReal.top_sub_coe, EReal.coe_sub_top, EReal.bot_sub_coe, EReal.coe_sub_bot, sub_eq_add_neg]

/-- The distance is symmetric in the two pedestrians. -/
theorem dist_symm (X : SX.Idx → EReal) (t : Fin 20) (s : Fin 256) (p q : Fin 128) :
    dist X t s p q = dist X t s q p := by
  unfold dist norm2
  rw [sub_mul_self_comm (X (ix3 t (ped s p) 0)), sub_mul_self_comm (X (ix3 t (ped s p) 1))]

/-- The least distance from pedestrian `p` of scene `s` to a partner, over all times. -/
def nearest (X : SX.Idx → EReal) (s : Fin 256) (p : Fin 128) : EReal :=
  ⨅ t : Fin 20, ⨅ q : Fin 128, dist X t s p q

/-- Reducing over the FIRST pedestrian instead gives the same least distance. -/
theorem nearest_eq_first (X : SX.Idx → EReal) (s : Fin 256) (q : Fin 128) :
    (⨅ t : Fin 20, ⨅ p : Fin 128, dist X t s p q) = nearest X s q := by
  unfold nearest
  exact iInf_congr fun t => iInf_congr fun p => dist_symm X t s p q

/-- An `i1` as a float: 0 or 1. -/
def ind (b : BitVec 1) : EReal := ((b.toNat : ℝ) : EReal)

/-- The reward of pedestrian `p` of scene `s`: 1 minus the indicator of a collision. -/
def reward (X : SX.Idx → EReal) (s : Fin 256) (p : Fin 128) : EReal :=
  one - ind (Ideal.cmp .olt (nearest X s p) thr)

/-- The reward of pedestrian `b` of the flat batch. -/
def rewardFlat (X : SX.Idx → EReal) (b : Fin 32768) : EReal :=
  reward X ⟨b.val / 128, by omega⟩ ⟨b.val % 128, by omega⟩

/-- The reward column: what both programs feed their two linear layers. -/
def rewardCol (X : SX.Idx → EReal) : SR.Idx → EReal := fun i => rewardFlat X (i 0)

end Cert.Collide

end
-- ==== Proof.BlocksKI.lean ====
/-
  The geometry of the pipelined region at the ideal instance: which entries of the trajectory a block holds.

  The region's input array is the trajectory reshaped to (time, scene, pedestrian, coordinate) and transposed to
  (time, coordinate, scene, pedestrian); grid point `t` stages the 32 scenes `32 t … 32 t + 31` of it whole, and
  writes back the 32 rows `32 t … 32 t + 31` of the (scene, pedestrian) reward array. So entry
  (k, coordinate, a, p) of the block at point `t` is the trajectory at time `k`, pedestrian `p` of scene
  `32 t + a`; and the eight output blocks tile the reward array.
-/
import proofs.«115439_j82222853915257_2_alg».proof.Proof.BodyKI
import proofs.«115439_j82222853915257_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Cert.KernelIdeal.Around Cert.KernelIdeal.Body
open Idealize.ShloMosaic Idealize.ShloMosaic.TcCoe Idealize.ShloMosaic.ValueIdx
open Idealize.SL Idealize.SL.Sem
open Idealize.ShloMosaic.Pipeline (Dat Cfg Window)

attribute [local instance] Cert.KernelIdeal.Gen.facts

variable (m : (ℓ : Loc nD τ sig) → Buf (Elt Ideal) ℓ)

theorem hz2 : (![0, 0] : Fin 2 → Nat) = fun _ => 0 := funext fun a => by fin_cases a <;> rfl

/-- The trajectory as launched on core `c`. -/
abbrev traj (c : Dev nD) : S20x32768x2.Idx → EReal := m ((c : Thread nD τ).loc main_arg0)

/-- The region's input array is the trajectory reshaped and transposed. -/
theorem V_v1 (c : Dev nD) : (V m c main_v1 : S20x2x256x128.Idx → EReal)
    = transpose S20x2x256x128 [0, 3, 1, 2] (shapeCast S20x256x128x2 (traj m c) Facts₀.shapeCasts_S20x32768x2_S20x256x128x2)
        Facts₀.transposes_S20x256x128x2_S20x2x256x128_0_3_1_2 := by
  show StableHlo.after (List.flatten [hostOps0]) (fun b => m (c, b)) (Proc.devRef .tc main_v1) = _
  simp only [hostOps0, List.flatten_cons, List.flatten_nil, List.append_nil]
  after_results
  rfl

/-- Entry (time, coordinate, scene, pedestrian) of it is the trajectory at (time, that pedestrian, coordinate). -/
theorem V_v1_apply (c : Dev nD) (k : Fin 20) (cc : Fin 2) (s : Fin 256) (p : Fin 128) :
    (V m c main_v1 : S20x2x256x128.Idx → EReal) (ix4 k cc s p) = traj m c (ix3 k (Collide.ped s p) cc) := by
  rw [V_v1]
  refine (transpose_apply _ _ _ (ix4 k cc s p) (ix4 k s p cc) (fun b => ?_)).trans ?_
  · match b with
    | ⟨0, _⟩ => rfl
    | ⟨1, _⟩ => rfl
    | ⟨2, _⟩ => rfl
    | ⟨3, _⟩ => rfl
  · refine shapeCast_apply _ _ (ix4 k s p cc) (ix3 k (Collide.ped s p) cc) ?_
    rw [Shape.rowMajor_val_three, Shape.rowMajor_val_four]
    show (k.val * 32768 + (s.val * 128 + p.val)) * 2 + cc.val = ((k.val * 256 + s.val) * 128 + p.val) * 2 + cc.val
    omega

/-- The printed index maps over the grid: point `t` stages scenes block `t` and writes back rows block `t`. -/
theorem idx_facts : ∀ t : Fin cfg0.N, win0_0.index t (0 : Fin 4) = 0 ∧ win0_0.index t (1 : Fin 4) = 0
    ∧ win0_0.index t (2 : Fin 4) = t.val ∧ win0_0.index t (3 : Fin 4) = 0
    ∧ win0_1.index t (0 : Fin 2) = t.val ∧ win0_1.index t (1 : Fin 2) = 0 :=
  (by decide +kernel : ∀ t : Fin grid0.N, _)

theorem t_lt (t : Fin cfg0.N) : t.val < 8 := lt_of_lt_of_eq t.isLt (show cfg0.N = 8 from N_0)

/-- Scene `a` of the block at point `t`. -/
def scene (t : Fin cfg0.N) (a : Fin 32) : Fin 256 := ⟨t.val * 32 + a.val, by have := t_lt t; omega⟩

/-- An entry of the input block at point `t` is the trajectory's at the block's scene. -/
theorem iblk_apply (c : Dev nD) (t : Fin cfg0.N) (k : Fin 20) (cc : Fin 2) (a : Fin 32) (p : Fin 128) :
    (iblk m c 0 t : S20x2x32x128.Idx → EReal) (ix4 k cc a p) = traj m c (ix3 k (Collide.ped (scene t a) p) cc) := by
  have ht := t_lt t
  obtain ⟨e0, e1, e2, e3, -, -⟩ := idx_facts t
  show (V m c main_v1 : S20x2x256x128.Idx → EReal) (((cfg0.win 0).blk t).view.emb (ix4 k cc a p)) = _
  have h : ((cfg0.win 0).blk t).view.emb (ix4 k cc a p) = ix4 k cc (scene t a) p := by
    funext ax; apply Fin.ext
    match ax with
    | ⟨0, _⟩ => show win0_0.index t (0 : Fin 4) * 20 + 1 * k.val = k.val; omega
    | ⟨1, _⟩ => show win0_0.index t (1 : Fin 4) * 2 + 1 * cc.val = cc.val; omega
    | ⟨2, _⟩ => show win0_0.index t (2 : Fin 4) * 32 + 1 * a.val = t.val * 32 + a.val; omega
    | ⟨3, _⟩ => show win0_0.index t (3 : Fin 4) * 128 + 1 * p.val = p.val; omega
  rw [h]
  exact V_v1_apply m c k cc (scene t a) p

/-- Where an entry of the output block at point `t` sits in the reward array. -/
theorem oblk_emb (t : Fin cfg0.N) (a : Fin 32) (p : Fin 128) :
    ((cfg0.win 1).blk t).view.emb (ix2 a p) = ix2 (scene t a) p := by
  have ht := t_lt t
  obtain ⟨-, -, -, -, e4, e5⟩ := idx_facts t
  funext ax; apply Fin.ext
  match ax with
  | ⟨0, _⟩ => show win0_1.index t (0 : Fin 2) * 32 + 1 * a.val = t.val * 32 + a.val; omega
  | ⟨1, _⟩ => show win0_1.index t (1 : Fin 2) * 128 + 1 * p.val = p.val; omega

/-- An index of the reward array is in point `t`'s block iff each coordinate is in the block's range. -/
theorem mem_blk1 (t : Fin cfg0.N) (i : S256x128.Idx) :
    i ∈ ((cfg0.win 1).blk t).view.set ↔ ∀ a : Fin 2, win0_1.index t a * S32x128.size a ≤ (i a).val ∧ (i a).val < win0_1.index t a * S32x128.size a + S32x128.size a := by
  show i ∈ ((View.whole main_v2).slice (win0_1.rect t)).set ↔ _
  rw [View.set_slice_whole, Rect.mem_set_unit]
  exact Iff.rfl

/-- The eight output blocks cover the reward array: row `r` is in block `r / 32`. -/
theorem cover1 (i : S256x128.Idx) : ∃ t : Fin cfg0.N, (cfg0.win 1).flush t = true ∧ i ∈ ((cfg0.win 1).blk t).view.set := by
  have hi0 : (i 0).val < 256 := (i 0).isLt
  have hi1 : (i 1).val < 128 := (i 1).isLt
  have hN : (i 0).val / 32 < cfg0.N := by rw [show cfg0.N = 8 from N_0]; omega
  refine ⟨⟨(i 0).val / 32, hN⟩, flush0_1 _, ?_⟩
  rw [mem_blk1]
  obtain ⟨-, -, -, -, e4, e5⟩ := idx_facts ⟨(i 0).val / 32, hN⟩
  intro a
  match a with
  | ⟨0, _⟩ =>
    show win0_1.index ⟨(i 0).val / 32, hN⟩ (0 : Fin 2) * 32 ≤ (i 0).val ∧ (i 0).val < win0_1.index ⟨(i 0).val / 32, hN⟩ (0 : Fin 2) * 32 + 32
    rw [e4]; show (i 0).val / 32 * 32 ≤ (i 0).val ∧ (i 0).val < (i 0).val / 32 * 32 + 32; omega
  | ⟨1, _⟩ =>
    show win0_1.index ⟨(i 0).val / 32, hN⟩ (1 : Fin 2) * 128 ≤ (i 1).val ∧ (i 1).val < win0_1.index ⟨(i 0).val / 32, hN⟩ (1 : Fin 2) * 128 + 128
    rw [e5]; omega

end Cert.KernelIdeal.Blocks

end
-- ==== Proof.LibMinReduce.lean ====
/-
  A minimum taken by folding, read as an infimum.

  On the extended reals `+∞` is the top element, so folding `min` from `+∞` over a finite family gives the family's
  infimum, and folding from any other start gives the minimum of the start and the infimum. The lemmas below say this
  for a fold over a finite index set, for a reduction over one axis of an array (the index with the reduced coordinate
  inserted runs over that axis), and one step at a time for an accumulation over `n` consecutive terms.
-/
import Idealize.ShloMosaic.PureOps.Ideal.Laws
import Idealize.ShloMosaic.PureOps.Reduce

noncomputable section

namespace Cert.LibMinReduce

open Idealize.ShloMosaic

/-- The f32 pattern of `+∞` denotes the top of the extended reals. -/
theorem ofBits_inf_f32 : Ideal.ofBits .f32 0x7F800000#32 = ⊤ := by simp [Ideal.ofBits, Ideal.ieee]

/-- A fold of `min` from `a` over a finite index set is the minimum of `a` and the infimum of the family. -/
theorem fold_min_eq_min_iInf {ι : Type} [Fintype ι] (a : EReal) (f : ι → EReal) :
    (Finset.univ : Finset ι).fold min a f = min a (⨅ k, f k) := by
  refine eq_of_forall_le_iff fun c => ?_
  rw [Finset.le_fold_min, le_min_iff, le_iInf_iff]
  exact and_congr_right fun _ => ⟨fun h k => h k (Finset.mem_univ k), fun h k _ => h k⟩

/-- From the top element the fold is the infimum itself. -/
theorem fold_min_top_eq_iInf {ι : Type} [Fintype ι] (f : ι → EReal) :
    (Finset.univ : Finset ι).fold min ⊤ f = ⨅ k, f k := by
  rw [fold_min_eq_min_iInf, min_top_left]

/-- A minimum reduction over ONE axis from the start value `+∞`, at a reduced index `j`: the infimum, over that axis's
    coordinates `k`, of the operand at `j` with `k` inserted. -/
theorem hostReduce_minimumf_single {s t u : Shape} {a : Fin s.rank} (x : FVec Ideal s .f32)
    (h' : s.ReducesTo [a] t) (h : s.Reduces [a] t) (hu : 0 < u.numel) (j : t.Idx) :
    Host.reduce (FloatOps.minimumf (F := Ideal) (φ := .f32)) x (constant (F := Ideal) u .f32 0x7F800000#32) h' hu j
      = ⨅ k : Fin (s.size a), x (h.lift j k) := by
  rw [Host.reduce_eq_fold_single FloatOps.minimumf x _ h' h hu]
  show (Finset.univ : Finset (Fin (s.size a))).fold min (Ideal.ofBits .f32 0x7F800000#32) (x ∘ h.lift j) = _
  rw [ofBits_inf_f32, fold_min_top_eq_iInf]
  rfl

/-- A vector minimum reduction over ONE axis from an accumulator word: the minimum of the accumulator's value and the
    infimum over that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = min (Ideal.ofBits φ acc) (⨅ k : Fin (s.size a), src (h.lift j k)) := by
  rw [multiReduction_minimumf_eq_fold]
  refine (h.fold_filter_drop_single _ _ src j).trans ?_
  exact fold_min_eq_min_iInf _ _

/-- The same from the f32 pattern of `+∞`: the infimum itself. -/
theorem multiReduction_minimumf_single_inf {s t : Shape} {a : Fin s.rank} (src : FVec Ideal s .f32)
    (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_single, ofBits_inf_f32, min_top_left]

/-- Over no index the infimum is the top element. -/
theorem iInf_fin_zero (f : Fin 0 → EReal) : (⨅ k, f k) = ⊤ := iInf_of_empty f

/-- One more term: the infimum over `n + 1` indices is the minimum of the infimum over the first `n` and the last term. -/
theorem iInf_fin_succ_last {n : Nat} (f : Fin (n + 1) → EReal) :
    (⨅ k, f k) = min (⨅ k : Fin n, f k.castSucc) (f (Fin.last n)) := by
  refine eq_of_forall_le_iff fun c => ?_
  rw [le_iInf_iff, le_min_iff, le_iInf_iff, Fin.forall_fin_succ']

/-- The same for a family indexed by the naturals, cut at `n + 1`. -/
theorem iInf_lt_succ (g : Nat → EReal) (n : Nat) :
    (⨅ k : Fin (n + 1), g k.val) = min (⨅ k : Fin n, g k.val) (g n) :=
  iInf_fin_succ_last fun k => g k.val

/-- An accumulation of `min` over `n` consecutive terms from `a`: the minimum of `a` and the infimum of the terms. -/
theorem foldl_min_eq_min_iInf (n : Nat) (f : Fin n → EReal) (a : EReal) :
    Fin.foldl n (fun acc k => min acc (f k)) a = min a (⨅ k, f k) := by
  induction n with
  | zero => rw [Fin.foldl_zero, iInf_fin_zero, min_top_right]
  | succ n ih => rw [Fin.foldl_succ_last, ih, iInf_fin_succ_last, min_assoc]

end Cert.LibMinReduce

end
-- ==== Proof.PayKI.lean ====
/-
  The kernel's three values, read index by index.

  The first is the start of the running minimum: `+∞` everywhere. The second is one step of it: from the two coordinate
  planes of one time step, the differences of every pair of pedestrians of a row (pedestrian `p` along one axis, `q` along
  the next), the root of the sum of their squares, a zero replaced by the threshold, the minimum over `q`, and the
  minimum of that with the carried value. The third is one minus the indicator that the final minimum is below the
  threshold; the indicator is a one-bit word widened to 32 bits and converted as a signed integer, which is 0 or 1.
-/
import proofs.«115439_j82222853915257_2_alg».proof.Proof.Gen.KernelIdeal.Skeleton
import proofs.«115439_j82222853915257_2_alg».proof.Proof.Spec
import proofs.«115439_j82222853915257_2_alg».proof.Proof.LibMinReduce
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.Pay

open Cert.KernelIdeal Cert.KernelIdeal.Gen Idealize.ShloMosaic Idealize.ShloMosaic.ValueIdx

/-! ## Constants, the select, the widened bit -/

/-- A broadcast scalar constant reads the constant everywhere. -/
theorem bconst_apply {s : Shape} (w : BitVec 32) (i : s.Idx) :
    broadcast s (Scalar.ofBits (F := Ideal) .f32 w) i = Ideal.ofBits .f32 w := rfl

/-- A select on an equality test is the `if`. -/
theorem select_cmp_oeq (x y a b : EReal) : Scalar.select (Ideal.cmp .oeq x y) a b = if x = y then a else b := by
  unfold Ideal.cmp Scalar.select
  by_cases h : x = y <;> simp [h]

/-- A one-bit word widened to 32 bits and read signed is the bit. -/
theorem toInt_setWidth_bit (b : BitVec 1) : (b.setWidth 32).toInt = (b.toNat : Int) := by
  rcases BitVec.eq_zero_or_eq_one b with h | h <;> subst h <;> decide

/-- So its conversion to a float is the indicator of the bit. -/
theorem sitofp_extui_bit (b : BitVec 1) : FloatOps.sitofp (F := Ideal) .f32 (b.setWidth 32) = Collide.ind b := by
  show (((b.setWidth 32).toInt : ℝ) : EReal) = ((b.toNat : ℝ) : EReal)
  rw [toInt_setWidth_bit, Int.cast_natCast]

/-! ## The stages of the second value -/

/-- The first coordinate plane of the time step. -/
def pX0 (v11 : Vec Ideal S1x2x32x128 .f32) : FVec Ideal S32x128 .f32 :=
  (shapeCast S32x128 (extractStridedSlice S1x32x128 ![0, 0, 0] (shapeCast S2x32x128 v11 shapeCasts_S1x2x32x128_S2x32x128) slices_S2x32x128_o0_0_0_S1x32x128) shapeCasts_S1x32x128_S32x128)

/-- The second coordinate plane. -/
def pX1 (v11 : Vec Ideal S1x2x32x128 .f32) : FVec Ideal S32x128 .f32 :=
  (shapeCast S32x128 (extractStridedSlice S1x32x128 ![1, 0, 0] (shapeCast S2x32x128 v11 shapeCasts_S1x2x32x128_S2x32x128) slices_S2x32x128_o1_0_0_S1x32x128) shapeCasts_S1x32x128_S32x128)

/-- The differences of a plane over every pair of a row. -/
def pDiff (Y : FVec Ideal S32x128 .f32) : FVec Ideal S32x128x128 .f32 :=
  subf (F := Ideal) (broadcastTo S32x128x128 (shapeCast S32x128x1 Y shapeCasts_S32x128_S32x128x1) broadcasts_S32x128x1_S32x128x128) (broadcastTo S32x128x128 (shapeCast S32x1x128 Y shapeCasts_S32x128_S32x1x128) broadcasts_S32x1x128_S32x128x128)

/-- The distances of every pair. -/
def pN (v11 : Vec Ideal S1x2x32x128 .f32) : FVec Ideal S32x128x128 .f32 :=
  sqrt (F := Ideal) (addf (F := Ideal) (mulf (F := Ideal) (pDiff (pX0 v11)) (pDiff (pX0 v11))) (mulf (F := Ideal) (pDiff (pX1 v11)) (pDiff (pX1 v11))))

/-- The distances, a zero replaced by the threshold. -/
def pC (v11 : Vec Ideal S1x2x32x128 .f32) : FVec Ideal S32x128x128 .f32 :=
  select (cmpf (F := Ideal) .oeq (pN v11) (broadcast S32x128x128 (Scalar.ofBits (F := Ideal) .f32 0x00000000#32)))
    (broadcast S32x128x128 (Scalar.ofBits (F := Ideal) .f32 0x3E800000#32)) (pN v11)

/-- The three values through their stages. -/
theorem pay1_eq : k0_pay1 (F := Ideal) = broadcast S32x128 (Scalar.ofBits (F := Ideal) .f32 0x7F800000#32) := rfl

theorem pay2_eq (acc : FVec Ideal S32x128 .f32) (v11 : Vec Ideal S1x2x32x128 .f32) :
    k0_pay2 (F := Ideal) acc v11 = minimumf (F := Ideal) acc
      (multiReduction (F := Ideal) .minimumf [2] S32x128 (pC v11) 0x7F800000#32 reduces_S32x128x128_S32x128 (.inl rfl) rfl) := rfl

theorem pay3_eq (v2 : FVec Ideal S32x128 .f32) :
    k0_pay3 (F := Ideal) v2 = subf (F := Ideal) (broadcast S32x128 (Scalar.ofBits (F := Ideal) .f32 0x3F800000#32))
      (sitofp (F := Ideal) .f32 (extui 32 (cmpf (F := Ideal) .olt v2 (broadcast S32x128 (Scalar.ofBits (F := Ideal) .f32 0x3E800000#32))) natLt_1_32)) := rfl

/-! ## Each stage at an index -/

/-- The first plane at (row, pedestrian). -/
theorem pX0_apply (v11 : Vec Ideal S1x2x32x128 .f32) (a : Fin 32) (p : Fin 128) :
    pX0 v11 (ix2 a p) = v11 (ix4 (0 : Fin 1) (0 : Fin 2) a p) :=
  (shapeCast_apply _ _ (ix2 a p) (ix3 (0 : Fin 1) a p) (by
    rw [Shape.rowMajor_val_three, Shape.rowMajor_val_two]
    show (0 * 32 + a.val) * 128 + p.val = a.val * 128 + p.val
    omega)).trans
  ((extractStridedSlice_apply _ _ _ (ix3 (0 : Fin 1) a p) (ix3 (0 : Fin 2) a p) (fun b => by
    match b with
    | ⟨0, _⟩ => rfl
    | ⟨1, _⟩ => show a.val = 0 + a.val; omega
    | ⟨2, _⟩ => show p.val = 0 + p.val; omega)).trans
  (shapeCast_apply _ _ (ix3 (0 : Fin 2) a p) (ix4 (0 : Fin 1) (0 : Fin 2) a p) (by
    rw [Shape.rowMajor_val_four, Shape.rowMajor_val_three]
    show ((0 * 2 + 0) * 32 + a.val) * 128 + p.val = (0 * 32 + a.val) * 128 + p.val
    omega)))

/-- The second plane at (row, pedestrian). -/
theorem pX1_apply (v11 : Vec Ideal S1x2x32x128 .f32) (a : Fin 32) (p : Fin 128) :
    pX1 v11 (ix2 a p) = v11 (ix4 (0 : Fin 1) (1 : Fin 2) a p) :=
  (shapeCast_apply _ _ (ix2 a p) (ix3 (0 : Fin 1) a p) (by
    rw [Shape.rowMajor_val_three, Shape.rowMajor_val_two]
    show (0 * 32 + a.val) * 128 + p.val = a.val * 128 + p.val
    omega)).trans
  ((extractStridedSlice_apply _ _ _ (ix3 (0 : Fin 1) a p) (ix3 (1 : Fin 2) a p) (fun b => by
    match b with
    | ⟨0, _⟩ => rfl
    | ⟨1, _⟩ => show a.val = 0 + a.val; omega
    | ⟨2, _⟩ => show p.val = 0 + p.val; omega)).trans
  (shapeCast_apply _ _ (ix3 (1 : Fin 2) a p) (ix4 (0 : Fin 1) (1 : Fin 2) a p) (by
    rw [Shape.rowMajor_val_four, Shape.rowMajor_val_three]
    show ((0 * 2 + 1) * 32 + a.val) * 128 + p.val = (1 * 32 + a.val) * 128 + p.val
    omega)))

/-- A plane as a column, broadcast along the second pedestrian. -/
theorem col_apply (Y : FVec Ideal S32x128 .f32) (a : Fin 32) (p q : Fin 128) :
    (broadcastTo S32x128x128 (shapeCast S32x128x1 Y shapeCasts_S32x128_S32x128x1) broadcasts_S32x128x1_S32x128x128) (ix3 a p q) = Y (ix2 a p) :=
  (broadcastTo_apply _ _ (ix3 a p q) (ix3 a p (0 : Fin 1)) (fun b => by
    match b with | ⟨0, _⟩ => rfl | ⟨1, _⟩ => rfl | ⟨2, _⟩ => rfl)).trans
  (shapeCast_apply _ _ (ix3 a p (0 : Fin 1)) (ix2 a p) (by
    rw [Shape.rowMajor_val_three, Shape.rowMajor_val_two]
    show a.val * 128 + p.val = (a.val * 128 + p.val) * 1 + 0
    omega))

/-- A plane as a row, broadcast along the first pedestrian. -/
theorem row_apply (Y : FVec Ideal S32x128 .f32) (a : Fin 32) (p q : Fin 128) :
    (broadcastTo S32x128x128 (shapeCast S32x1x128 Y shapeCasts_S32x128_S32x1x128) broadcasts_S32x1x128_S32x128x128) (ix3 a p q) = Y (ix2 a q) :=
  (broadcastTo_apply _ _ (ix3 a p q) (ix3 a (0 : Fin 1) q) (fun b => by
    match b with | ⟨0, _⟩ => rfl | ⟨1, _⟩ => rfl | ⟨2, _⟩ => rfl)).trans
  (shapeCast_apply _ _ (ix3 a (0 : Fin 1) q) (ix2 a q) (by
    rw [Shape.rowMajor_val_three, Shape.rowMajor_val_two]
    show a.val * 128 + q.val = (a.val * 1 + 0) * 128 + q.val
    omega))

/-- The difference of a plane between pedestrians `p` and `q` of a row. -/
theorem pDiff_apply (Y : FVec Ideal S32x128 .f32) (a : Fin 32) (p q : Fin 128) :
    pDiff Y (ix3 a p q) = Y (ix2 a p) - Y (ix2 a q) := by
  show (broadcastTo S32x128x128 (shapeCast S32x128x1 Y shapeCasts_S32x128_S32x128x1) broadcasts_S32x128x1_S32x128x128) (ix3 a p q) - (broadcastTo S32x128x128 (shapeCast S32x1x128 Y shapeCasts_S32x128_S32x1x128) broadcasts_S32x1x128_S32x128x128) (ix3 a p q) = _
  rw [col_apply, row_apply]

/-- The distance between pedestrians `p` and `q` of a row. -/
theorem pN_apply (v11 : Vec Ideal S1x2x32x128 .f32) (a : Fin 32) (p q : Fin 128) :
    pN v11 (ix3 a p q) = Collide.norm2
      ((v11 (ix4 (0 : Fin 1) (0 : Fin 2) a p) : EReal) - v11 (ix4 (0 : Fin 1) (0 : Fin 2) a q))
      ((v11 (ix4 (0 : Fin 1) (1 : Fin 2) a p) : EReal) - v11 (ix4 (0 : Fin 1) (1 : Fin 2) a q)) := by
  show Ideal.sqrt (pDiff (pX0 v11) (ix3 a p q) * pDiff (pX0 v11) (ix3 a p q)
    + pDiff (pX1 v11) (ix3 a p q) * pDiff (pX1 v11) (ix3 a p q)) = _
  rw [pDiff_apply, pDiff_apply, pX0_apply, pX0_apply, pX1_apply, pX1_apply]
  rfl

/-- The distance with a zero replaced by the threshold. -/
theorem pC_apply (v11 : Vec Ideal S1x2x32x128 .f32) (a : Fin 32) (p q : Fin 128) :
    pC v11 (ix3 a p q) = Collide.clampZero (Collide.norm2
      ((v11 (ix4 (0 : Fin 1) (0 : Fin 2) a p) : EReal) - v11 (ix4 (0 : Fin 1) (0 : Fin 2) a q))
      ((v11 (ix4 (0 : Fin 1) (1 : Fin 2) a p) : EReal) - v11 (ix4 (0 : Fin 1) (1 : Fin 2) a q))) := by
  unfold pC
  rw [select_apply, cmpf_apply, bconst_apply, bconst_apply, pN_apply]
  exact select_cmp_oeq _ _ _ _

/-- The reduced axis's index insertion. -/
theorem liftQ (a : Fin 32) (p q : Fin 128) : reduces_S32x128x128_S32x128.lift (ix2 a p) q = ix3 a p q :=
  funext fun b => Fin.ext (by match b with | ⟨0, _⟩ => rfl | ⟨1, _⟩ => rfl | ⟨2, _⟩ => rfl)

/-! ## The three values at an index -/

/-- The start of the running minimum is `+∞`. -/
theorem pay1_apply (a : Fin 32) (p : Fin 128) : k0_pay1 (F := Ideal) (ix2 a p) = ⊤ := by
  rw [pay1_eq, bconst_apply]
  exact LibMinReduce.ofBits_inf_f32

/-- One step of the running minimum: the carried value against the least clamped distance to a pedestrian of the row. -/
theorem pay2_apply (acc : FVec Ideal S32x128 .f32) (v11 : Vec Ideal S1x2x32x128 .f32) (a : Fin 32) (p : Fin 128) :
    k0_pay2 (F := Ideal) acc v11 (ix2 a p) = min (acc (ix2 a p)) (⨅ q : Fin 128, Collide.clampZero (Collide.norm2
      ((v11 (ix4 (0 : Fin 1) (0 : Fin 2) a p) : EReal) - v11 (ix4 (0 : Fin 1) (0 : Fin 2) a q))
      ((v11 (ix4 (0 : Fin 1) (1 : Fin 2) a p) : EReal) - v11 (ix4 (0 : Fin 1) (1 : Fin 2) a q)))) := by
  rw [pay2_eq, minimumf_apply]
  refine congrArg (min (acc (ix2 a p))) ?_
  refine (LibMinReduce.multiReduction_minimumf_single_inf (pC v11) reduces_S32x128x128_S32x128 _ _ (ix2 a p)).trans ?_
  show (⨅ q : Fin 128, pC v11 (reduces_S32x128x128_S32x128.lift (ix2 a p) q)) = _
  refine iInf_congr fun q => ?_
  rw [liftQ, pC_apply]

/-- The reward from the final minimum: one minus the indicator that it is below the threshold. -/
theorem pay3_apply (v2 : FVec Ideal S32x128 .f32) (a : Fin 32) (p : Fin 128) :
    k0_pay3 (F := Ideal) v2 (ix2 a p) = Collide.one - Collide.ind (Ideal.cmp .olt (v2 (ix2 a p)) Collide.thr) := by
  rw [pay3_eq, subf_apply, bconst_apply, sitofp_apply, extui_apply, cmpf_apply, bconst_apply]
  exact congrArg (fun x => Collide.one - x) (sitofp_extui_bit _)

end Cert.KernelIdeal.Pay

end
-- ==== Proof.FoldKI.lean ====
/-
  The running minimum after the last step of the loop over time, read index by index.

  Each trip of the loop reads the two coordinate planes of one time step and takes the minimum of the carried value
  with the least clamped distance, at that time, from each pedestrian to a pedestrian of its row. The carried value
  starts at `+∞`. So after `n` trips it is the infimum of those least distances over the first `n` times — by induction
  on `n`, one more term of the infimum per trip — and after all twenty it is the infimum over every time.
-/
import proofs.«115439_j82222853915257_2_alg».proof.Proof.BodyKI
import proofs.«115439_j82222853915257_2_alg».proof.Proof.PayKI
import proofs.«115439_j82222853915257_2_alg».proof.Proof.LibMinReduce
import proofs.«115439_j82222853915257_2_alg».proof.Proof.Spec

set_option maxRecDepth 16384

noncomputable section

namespace Cert.KernelIdeal.Fold

open Cert.KernelIdeal Cert.KernelIdeal.Gen
open Idealize.ShloMosaic Idealize.ShloMosaic.TcCoe Idealize.ShloMosaic.ValueIdx
open Idealize.SL Idealize.SL.Sem

/-- The least clamped distance from pedestrian `p` of row `a` to a pedestrian of the row, at time `k`, in the block `x0`. -/
def stepMin (x0 : Vec Ideal S20x2x32x128 .f32) (a : Fin 32) (p : Fin 128) (k : Fin 20) : EReal :=
  ⨅ q : Fin 128, Collide.clampZero (Collide.norm2
    ((x0 (ix4 k (0 : Fin 2) a p) : EReal) - x0 (ix4 k (0 : Fin 2) a q))
    ((x0 (ix4 k (1 : Fin 2) a p) : EReal) - x0 (ix4 k (1 : Fin 2) a q)))

/-- The loop over time makes twenty trips. -/
theorem trips_eq : k0_t1_loop.trips = 20 := by decide +kernel

/-- A trip's number is a time. -/
theorem trip_lt (k : Fin k0_t1_loop.trips) : k.val < 20 := Nat.lt_of_lt_of_le k.isLt k0_t1_abs.2.1

/-- The block of one time step, loaded from the whole input block `x0`, at (plane, row, pedestrian): the input block
    at that time. -/
theorem load_apply (arg1 : Memref sig .tc .vmem S20x2x32x128 .f32) (harg1 : arg1.IsWhole)
    (x0 : Vec Ideal S20x2x32x128 .f32) (k : Fin k0_t1_loop.trips) (cc : Fin 2) (b : Fin 32) (q : Fin 128) :
    View.readAt (Elt Ideal) arg1.view
        (Rect.unit (s := S20x2x32x128) (k0_off1 k) S1x2x32x128.size (k0_off1_inb k)).toLoadRect (harg1.unread x0)
        (ix4 (0 : Fin 1) cc b q)
      = x0 (ix4 (⟨k.val, trip_lt k⟩ : Fin 20) cc b q) := by
  rw [View.readAt_apply, harg1.read_unread]
  refine congrArg x0 (funext fun d => Fin.ext ?_)
  have e := k0_off1_eq k
  match d with
  | ⟨0, _⟩ => show k0_off1 k 0 + 1 * 0 = k.val; rw [e]; rfl
  | ⟨1, _⟩ => show k0_off1 k 1 + 1 * cc.val = cc.val; rw [e]; show 0 + 1 * cc.val = cc.val; omega
  | ⟨2, _⟩ => show k0_off1 k 2 + 1 * b.val = b.val; rw [e]; show 0 + 1 * b.val = b.val; omega
  | ⟨3, _⟩ => show k0_off1 k 3 + 1 * q.val = q.val; rw [e]; show 0 + 1 * q.val = q.val; omega

/-- What one trip yields: the second value of the kernel on the carried value and the loaded block. -/
theorem tripR_eq (𝒱 : Variants) (c : Dev nD) (bd : Option 𝒱.V) (i : grid0.Coords)
    (arg1 : Memref sig .tc .vmem S20x2x32x128 .f32) (harg1 : arg1.IsWhole)
    (arg2 : Memref sig .tc .vmem S32x128 .f32) (harg2 : arg2.IsWhole)
    (X : BufTy.Contents (Elt Ideal) arg1.view.ty) (k : Fin k0_t1_loop.trips) (acc : FVec Ideal S32x128 .f32) :
    tripR_k0_t1 (F := Ideal) 𝒱 c bd i arg1 harg1 arg2 harg2 X k acc
      = k0_pay2 (F := Ideal) acc (View.readAt (Elt Ideal) arg1.view
          (Rect.unit (s := S20x2x32x128) (k0_off1 k) S1x2x32x128.size (k0_off1_inb k)).toLoadRect X) := by
  unfold tripR_k0_t1 trip_k0_t1
  rfl

/-- One trip at an index: the carried value against the least clamped distance at the trip's time. -/
theorem tripR_apply (𝒱 : Variants) (c : Dev nD) (bd : Option 𝒱.V) (i : grid0.Coords)
    (arg1 : Memref sig .tc .vmem S20x2x32x128 .f32) (harg1 : arg1.IsWhole)
    (arg2 : Memref sig .tc .vmem S32x128 .f32) (harg2 : arg2.IsWhole)
    (x0 : Vec Ideal S20x2x32x128 .f32) (k : Fin k0_t1_loop.trips) (acc : FVec Ideal S32x128 .f32)
    (a : Fin 32) (p : Fin 128) :
    tripR_k0_t1 (F := Ideal) 𝒱 c bd i arg1 harg1 arg2 harg2 (harg1.unread x0) k acc (ix2 a p)
      = min (acc (ix2 a p)) (stepMin x0 a p ⟨k.val, trip_lt k⟩) := by
  rw [tripR_eq, Pay.pay2_apply]
  unfold stepMin
  refine congrArg (min (acc (ix2 a p))) (iInf_congr fun q => ?_)
  rw [load_apply, load_apply, load_apply, load_apply]

/-- The least clamped distance at time `n`, for every natural `n` (beyond the last time: `+∞`). -/
def stepAt (x0 : Vec Ideal S20x2x32x128 .f32) (a : Fin 32) (p : Fin 128) (n : Nat) : EReal :=
  if h : n < 20 then stepMin x0 a p ⟨n, h⟩ else ⊤

/-- The carried value before trip `n`: the infimum over the first `n` times. -/
theorem st_apply (𝒱 : Variants) (c : Dev nD) (bd : Option 𝒱.V) (i : grid0.Coords)
    (arg1 : Memref sig .tc .vmem S20x2x32x128 .f32) (harg1 : arg1.IsWhole)
    (arg2 : Memref sig .tc .vmem S32x128 .f32) (harg2 : arg2.IsWhole)
    (x0 : Vec Ideal S20x2x32x128 .f32) (a : Fin 32) (p : Fin 128) :
    ∀ n : Nat, n ≤ k0_t1_loop.trips →
      st_k0_t1 (F := Ideal) 𝒱 c bd i arg1 harg1 arg2 harg2 (harg1.unread x0) k0_pay1 n (ix2 a p)
        = ⨅ j : Fin n, stepAt x0 a p j.val := by
  intro n
  induction n with
  | zero =>
    intro _
    rw [st_k0_t1_zero, Pay.pay1_apply, LibMinReduce.iInf_fin_zero]
  | succ n ih =>
    intro hn
    have hlt : n < k0_t1_loop.trips := hn
    have hs : st_k0_t1 (F := Ideal) 𝒱 c bd i arg1 harg1 arg2 harg2 (harg1.unread x0) k0_pay1 (n + 1)
        = tripR_k0_t1 (F := Ideal) 𝒱 c bd i arg1 harg1 arg2 harg2 (harg1.unread x0) ⟨n, hlt⟩
            (st_k0_t1 (F := Ideal) 𝒱 c bd i arg1 harg1 arg2 harg2 (harg1.unread x0) k0_pay1 n) :=
      st_k0_t1_succ 𝒱 c bd i arg1 harg1 arg2 harg2 (harg1.unread x0) k0_pay1 ⟨n, hlt⟩
    rw [hs, tripR_apply, ih (Nat.le_of_lt hlt), LibMinReduce.iInf_lt_succ (stepAt x0 a p) n]
    refine congrArg (min _) ?_
    unfold stepAt
    rw [dif_pos (trip_lt ⟨n, hlt⟩)]

/-- The running minimum after the last trip: the infimum over every time of the least clamped distance. -/
theorem runMin_apply (c : Dev nD) (i : grid0.Coords) (arg1 : Memref sig .tc .vmem S20x2x32x128 .f32) (harg1 : arg1.IsWhole)
    (arg2 : Memref sig .tc .vmem S32x128 .f32) (harg2 : arg2.IsWhole) (x0 : Vec Ideal S20x2x32x128 .f32) (a : Fin 32) (p : Fin 128) :
    Body.runMin (F := Ideal) c i arg1 harg1 arg2 harg2 x0 (ix2 a p) = ⨅ k : Fin 20, stepMin x0 a p k := by
  unfold Body.runMin
  rw [show Scf.trips k0_t1_loop.lb k0_t1_loop.ub k0_t1_loop.st = 20 from trips_eq,
    st_apply Variants.none c none i arg1 harg1 arg2 harg2 x0 a p 20 (le_of_eq trips_eq.symm)]
  refine iInf_congr fun k => ?_
  unfold stepAt
  rw [dif_pos k.isLt]

end Cert.KernelIdeal.Fold

end
-- ==== Proof.FinalKI.lean ====
/-
  What the pipelined region leaves in the reward array, at the ideal instance: entry (scene, pedestrian) is that
  pedestrian's reward, as one function of the trajectory.

  At grid point `t` the body's one store is the reward of the running minimum; the running minimum after the 20 trips
  is, entry by entry, the least over time of the least thresholded distance to a partner (the fold of the loop's
  trips); an entry of the block is the trajectory's at scene `32 t + a`; so what point `t` writes back is block `t`
  of the reward array of the whole trajectory, and the eight blocks cover the array.
-/
import proofs.«115439_j82222853915257_2_alg».proof.Proof.BlocksKI
import proofs.«115439_j82222853915257_2_alg».proof.Proof.FoldKI
import proofs.«115439_j82222853915257_2_alg».proof.Proof.PayKI

set_option maxRecDepth 16384

noncomputable section

namespace Cert.KernelIdeal.Final

open Cert.KernelIdeal Cert.KernelIdeal.Gen Cert.KernelIdeal.Around Cert.KernelIdeal.Body Cert.KernelIdeal.Blocks
open Idealize.ShloMosaic Idealize.ShloMosaic.TcCoe Idealize.ShloMosaic.ValueIdx
open Idealize.SL Idealize.SL.Sem
open Idealize.ShloMosaic.Pipeline (Dat Cfg Window)

attribute [local instance] Cert.KernelIdeal.Gen.facts

variable (m : (ℓ : Loc nD τ sig) → Buf (Elt Ideal) ℓ)

/-- The reward array: entry (scene, pedestrian) is that pedestrian's reward. -/
def rewardArr (X : S20x32768x2.Idx → EReal) : S256x128.Idx → EReal := fun j => Collide.reward X (j 0) (j 1)

theorem rewardArr_apply (X : S20x32768x2.Idx → EReal) (s : Fin 256) (p : Fin 128) :
    rewardArr X (ix2 s p) = Collide.reward X s p := rfl

/-- The least distance over time and partners, read in the block at point `t`, is the trajectory's at the block's scene. -/
theorem nearest_block (c : Dev nD) (t : Fin cfg0.N) (a : Fin 32) (p : Fin 128) :
    (⨅ k : Fin 20, Fold.stepMin (iblk m c 0 t) a p k) = Collide.nearest (traj m c) (scene t a) p := by
  unfold Collide.nearest
  refine iInf_congr fun k => ?_
  unfold Fold.stepMin
  refine iInf_congr fun q => ?_
  unfold Collide.dist
  rw [iblk_apply m c t k 0 a p, iblk_apply m c t k 0 a q, iblk_apply m c t k 1 a p, iblk_apply m c t k 1 a q]

/-- What point `t` writes back is block `t` of the reward array of the trajectory. -/
theorem flushed_eq (c : Dev nD) (t : Fin cfg0.N) :
    (dats m 0 c).flushed 1 t = ((cfg0.win 1).blk t).view.read (Elt Ideal) (rewardArr (traj m c)) := by
  show (cfg0.win 1).cut (grid0.coords t) ((dats m 0 c).after 1 t) = _
  rw [after0_1]
  unfold outAt out0_1
  rw [View.canon_unit_zero hz2]
  funext y
  obtain ⟨a, p, rfl⟩ : ∃ (a : Fin 32) (p : Fin 128), y = ix2 a p := ⟨y 0, y 1, eq_ix2 y⟩
  refine (Pay.pay3_apply _ a p).trans ?_
  rw [Fold.runMin_apply, nearest_block]
  show _ = rewardArr (traj m c) (((cfg0.win 1).blk t).view.emb (ix2 a p))
  rw [oblk_emb, rewardArr_apply]
  rfl

/-- The reward array after the run. -/
theorem final (c : Dev nD) : (dats m 0 c).arrAt 1 cfg0.N = rewardArr (traj m c) :=
  (dats m 0 c).arrAt_eq_of_cover 1 _ (fun t _ => flushed_eq m c t) cover1

end Cert.KernelIdeal.Final

end
-- ==== Proof.Tail.lean ====
/-
  The two Linear → BatchNorm → ReLU layers both programs apply to the reward column, as ONE pure function of the
  column and the eight parameter arrays, on the extended reals (every operation exact).

  A layer takes rows x (32768 of them), a weight matrix W, a bias b, a scale g and a shift be: the pre-activation is
  h = x · W + b; its batch mean and batch variance are taken per feature over the 32768 rows; the output is
  max (g · (h − mean) · (var + ε)^(−1/2) + be, 0). The first layer maps the one reward feature to 1024, the second maps
  the 1024 back to one. Each formula below is spelled operation by operation as the programs spell it (the same
  operations in the same order in both), so that each program's fold over its buffers is this function by computation.
-/
import proofs.«115439_j82222853915257_2_alg».proof.KernelIdeal
import Idealize.ShloMosaic.PureOps.Ideal

noncomputable section

namespace Cert.KernelIdeal.TailDef

open Idealize.ShloMosaic Cert.KernelIdeal Cert.KernelIdeal.Facts₀

variable [Cert.KernelIdeal.Facts]

/-- The first linear layer: the column times the weight row, plus the bias along the rows. -/
def lin1 (r : FVec Ideal S32768x1 .f32) (w1 : FVec Ideal S1x1024 .f32) (b1 : FVec Ideal S1024 .f32) :
    FVec Ideal S32768x1024 .f32 :=
  addf (Host.dotGeneral (F := Ideal) dot_S32768x1_S1x1024_S32768x1024_1_0_0_1_n_n none r w1)
    (broadcastInDim S32768x1024 ![0, 1] bcast_S1x1024_S32768x1024_0_1 (broadcastInDim S1x1024 ![1] bcast_S1024_S1x1024_1 b1))

/-- The batch mean of layer 1's pre-activations: the sum over the 32768 rows divided by 32768, per feature. -/
def mean1 (h : FVec Ideal S32768x1024 .f32) : FVec Ideal S1024 .f32 :=
  Host.divf (F := Ideal) (Host.reduceAdd (F := Ideal) h (constant (F := Ideal) S_ .f32 0x00000000#32) reducesTo_S32768x1024_S1024_d0 h_S_)
    (broadcastInDim S1024 ![] bcast_S_S1024 (constant (F := Ideal) S_ .f32 0x47000000#32))

/-- The batch variance of layer 1's pre-activations as the programs compute it: the mean once more (kept as a row),
    the squares of the centred values summed over the rows and divided by 32768 minus the correction (the integer 0
    converted), and that quotient selected where the divisor is positive, the quiet-NaN pattern's value elsewhere. -/
def var1 (h : FVec Ideal S32768x1024 .f32) : FVec Ideal S1024 .f32 :=
  let mu : FVec Ideal S1x1024 .f32 :=
    Host.divf (F := Ideal)
      (broadcastInDim S1x1024 ![1] bcast_S1024_S1x1024_1 (Host.reduceAdd (F := Ideal) h (constant (F := Ideal) S_ .f32 0x00000000#32) reducesTo_S32768x1024_S1024_d0 h_S_))
      (broadcastInDim S1x1024 ![] bcast_S_S1x1024 (constant (F := Ideal) S_ .f32 0x47000000#32))
  let d : FVec Ideal S32768x1024 .f32 := subf h (broadcastInDim S32768x1024 ![0, 1] bcast_S1x1024_S32768x1024_0_1 mu)
  let n : FVec Ideal S_ .f32 := subf (constant (F := Ideal) S_ .f32 0x47000000#32) (sitofp .f32 (constantI S_ 32 0#32))
  select (broadcastInDim S1024 ![] bcast_S_S1024 (cmpf .ogt n (constant (F := Ideal) S_ .f32 0x00000000#32)))
    (Host.divf (F := Ideal) (Host.reduceAdd (F := Ideal) (mulf d d) (constant (F := Ideal) S_ .f32 0x00000000#32) reducesTo_S32768x1024_S1024_d0 h_S_) (broadcastInDim S1024 ![] bcast_S_S1024 n))
    (broadcastInDim S1024 ![] bcast_S_S1024 (id (constant (F := Ideal) S_ .f32 0x7FC00000#32)))

/-- Layer 1's normalisation and rectifier: scale times the centred value, times the reciprocal square root of variance
    plus epsilon, plus the shift; then the maximum with zero. -/
def normRelu1 (h : FVec Ideal S32768x1024 .f32) (g be : FVec Ideal S1024 .f32) : FVec Ideal S32768x1024 .f32 :=
  let row (v : FVec Ideal S1024 .f32) : FVec Ideal S32768x1024 .f32 :=
    broadcastInDim S32768x1024 ![0, 1] bcast_S1x1024_S32768x1024_0_1 (broadcastInDim S1x1024 ![1] bcast_S1024_S1x1024_1 v)
  maximumf
    (addf (mulf (mulf (row g) (subf h (row (mean1 h))))
            (row (Host.rsqrt (F := Ideal) (addf (var1 h) (broadcastInDim S1024 ![] bcast_S_S1024 (constant (F := Ideal) S_ .f32 0x3727C5AC#32))))))
      (row be))
    (broadcastInDim S32768x1024 ![] bcast_S_S32768x1024 (constant (F := Ideal) S_ .f32 0x00000000#32))

/-- The second linear layer: the 1024 features times the weight column, plus the bias along the rows. -/
def lin2 (a : FVec Ideal S32768x1024 .f32) (w2 : FVec Ideal S1024x1 .f32) (b2 : FVec Ideal S1 .f32) :
    FVec Ideal S32768x1 .f32 :=
  addf (Host.dotGeneral (F := Ideal) dot_S32768x1024_S1024x1_S32768x1_1_0_0_1_n_n none a w2)
    (broadcastInDim S32768x1 ![0, 1] bcast_S1x1_S32768x1_0_1 (broadcastInDim S1x1 ![1] bcast_S1_S1x1_1 b2))

/-- The batch mean of layer 2's pre-activations: the sum over the 32768 rows divided by 32768, per feature. -/
def mean2 (h : FVec Ideal S32768x1 .f32) : FVec Ideal S1 .f32 :=
  Host.divf (F := Ideal) (Host.reduceAdd (F := Ideal) h (constant (F := Ideal) S_ .f32 0x00000000#32) reducesTo_S32768x1_S1_d0 h_S_)
    (broadcastInDim S1 ![] bcast_S_S1 (constant (F := Ideal) S_ .f32 0x47000000#32))

/-- The batch variance of layer 2's pre-activations as the programs compute it: the mean once more (kept as a row),
    the squares of the centred values summed over the rows and divided by 32768 minus the correction (the integer 0
    converted), and that quotient selected where the divisor is positive, the quiet-NaN pattern's value elsewhere. -/
def var2 (h : FVec Ideal S32768x1 .f32) : FVec Ideal S1 .f32 :=
  let mu : FVec Ideal S1x1 .f32 :=
    Host.divf (F := Ideal)
      (broadcastInDim S1x1 ![1] bcast_S1_S1x1_1 (Host.reduceAdd (F := Ideal) h (constant (F := Ideal) S_ .f32 0x00000000#32) reducesTo_S32768x1_S1_d0 h_S_))
      (broadcastInDim S1x1 ![] bcast_S_S1x1 (constant (F := Ideal) S_ .f32 0x47000000#32))
  let d : FVec Ideal S32768x1 .f32 := subf h (broadcastInDim S32768x1 ![0, 1] bcast_S1x1_S32768x1_0_1 mu)
  let n : FVec Ideal S_ .f32 := subf (constant (F := Ideal) S_ .f32 0x47000000#32) (sitofp .f32 (constantI S_ 32 0#32))
  select (broadcastInDim S1 ![] bcast_S_S1 (cmpf .ogt n (constant (F := Ideal) S_ .f32 0x00000000#32)))
    (Host.divf (F := Ideal) (Host.reduceAdd (F := Ideal) (mulf d d) (constant (F := Ideal) S_ .f32 0x00000000#32) reducesTo_S32768x1_S1_d0 h_S_) (broadcastInDim S1 ![] bcast_S_S1 n))
    (broadcastInDim S1 ![] bcast_S_S1 (id (constant (F := Ideal) S_ .f32 0x7FC00000#32)))

/-- Layer 2's normalisation and rectifier: scale times the centred value, times the reciprocal square root of variance
    plus epsilon, plus the shift; then the maximum with zero. -/
def normRelu2 (h : FVec Ideal S32768x1 .f32) (g be : FVec Ideal S1 .f32) : FVec Ideal S32768x1 .f32 :=
  let row (v : FVec Ideal S1 .f32) : FVec Ideal S32768x1 .f32 :=
    broadcastInDim S32768x1 ![0, 1] bcast_S1x1_S32768x1_0_1 (broadcastInDim S1x1 ![1] bcast_S1_S1x1_1 v)
  maximumf
    (addf (mulf (mulf (row g) (subf h (row (mean2 h))))
            (row (Host.rsqrt (F := Ideal) (addf (var2 h) (broadcastInDim S1 ![] bcast_S_S1 (constant (F := Ideal) S_ .f32 0x3727C5AC#32))))))
      (row be))
    (broadcastInDim S32768x1 ![] bcast_S_S32768x1 (constant (F := Ideal) S_ .f32 0x00000000#32))

/-- The two layers applied to the reward column `r`. -/
def tail (r : FVec Ideal S32768x1 .f32) (w1 : FVec Ideal S1x1024 .f32) (b1 g1 be1 : FVec Ideal S1024 .f32)
    (w2 : FVec Ideal S1024x1 .f32) (b2 g2 be2 : FVec Ideal S1 .f32) : FVec Ideal S32768x1 .f32 :=
  normRelu2 (lin2 (normRelu1 (lin1 r w1 b1) g1 be1) w2 b2) g2 be2

end Cert.KernelIdeal.TailDef

end
-- ==== Proof.TailK.lean ====
/-
  The kernel program after its reward column: the fold of its remaining host operations over any buffer contents, read at
  the result buffer, is the two layers of `TailDef.tail` applied to the reward array taken row-major as a column and
  to the eight parameter arrays.
-/
import proofs.«115439_j82222853915257_2_alg».proof.Proof.Tail
import proofs.«115439_j82222853915257_2_alg».proof.Proof.Gen.KernelIdeal.Launch
import Idealize.ShloMosaic.Lib.StableHlo.Run

noncomputable section

namespace Cert.KernelIdeal.TailK

open Idealize.ShloMosaic Idealize.SL.Sem Cert.KernelIdeal Cert.KernelIdeal.Gen

set_option maxHeartbeats 2000000 in
/-- Every operation of the kernel program after its pallas_call, in order, composes to `TailDef.tail`: each buffer is
    written once, by the operation that defines its value, and read by the later operations that name it, so the fold
    at the result is the composition of the operations' functions; the first operation takes the [256, 128] reward array
    row-major as a [32768, 1] column. -/
theorem tailK (W : Valuation τ sig (Elt Ideal)) :
    StableHlo.after (List.flatten [Gen.hostOps1 (F := Ideal), Gen.hostOps1_1, Gen.hostOps1_2, Gen.hostOps1_3, Gen.hostOps1_4,
        Gen.hostOps1_5, Gen.hostOps1_6, Gen.hostOps1_7]) W (Proc.devRef .tc main_v51)
      = TailDef.tail (shapeCast S32768x1 (W (Proc.devRef .tc main_v2)) Gen.shapeCasts_S256x128_S32768x1)
          (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  simp only [Gen.hostOps1, Gen.hostOps1_1, Gen.hostOps1_2, Gen.hostOps1_3, Gen.hostOps1_4, Gen.hostOps1_5, Gen.hostOps1_6,
    Gen.hostOps1_7, List.flatten_cons, List.flatten_nil, List.append_nil, List.cons_append, List.nil_append]
  after_results_simp
  rfl

end Cert.KernelIdeal.TailK

end
-- ==== Proof.RunKI.lean ====
/-
  The idealized kernel program's run with its result named: the two layers of `TailDef.tail` applied to the reward
  column of the launched trajectory and to the eight parameter arrays, the eleven arguments unchanged.

  The frame run leaves the result buffer at the fold of the lines after the region over "the reward array as the region
  left it, every other buffer as the region found it"; that fold is `TailDef.tail` of the reward array taken row-major
  as a column; the reward array is `rewardArr` of the trajectory; and row-major, entry `b` of the column is entry
  (b / 128, b % 128) of the array: pedestrian `b`'s reward.
-/
import proofs.«115439_j82222853915257_2_alg».proof.Proof.FinalKI
import proofs.«115439_j82222853915257_2_alg».proof.Proof.TailK

set_option maxRecDepth 16384

noncomputable section

namespace Cert.KernelIdeal.Run

open Cert.KernelIdeal Cert.KernelIdeal.Gen Cert.KernelIdeal.Around Cert.KernelIdeal.Body Cert.KernelIdeal.Blocks
open Idealize.ShloMosaic Idealize.ShloMosaic.TcCoe Idealize.ShloMosaic.ValueIdx
open Idealize.SL Idealize.SL.Sem
open Idealize.ShloMosaic.Pipeline (Dat Cfg Window)

attribute [local instance] Cert.KernelIdeal.Gen.facts

variable (m : (ℓ : Loc nD τ sig) → Buf (Elt Ideal) ℓ) (ρ : Dev nD → PrngReg)

/-- The reward array taken row-major as a column is the reward column. -/
theorem rewardArr_col (X : S20x32768x2.Idx → EReal) :
    shapeCast S32768x1 (Final.rewardArr X) Gen.shapeCasts_S256x128_S32768x1 = Cert.Collide.rewardCol X := by
  funext i
  obtain ⟨b, z, rfl⟩ : ∃ (b : Fin 32768) (z : Fin 1), i = ix2 b z := ⟨i 0, i 1, eq_ix2 i⟩
  have hb := b.isLt
  have hz : z.val = 0 := by have := z.isLt; omega
  refine (shapeCast_apply _ _ (ix2 b z) (ix2 (⟨b.val / 128, by omega⟩ : Fin 256) (⟨b.val % 128, by omega⟩ : Fin 128)) ?_).trans ?_
  · rw [Shape.rowMajor_val_two, Shape.rowMajor_val_two]
    show b.val / 128 * 128 + b.val % 128 = b.val * 1 + z.val
    omega
  · rfl

/-- The result buffer after the lines that follow the region. -/
theorem tail_read (c : Dev nD) :
    Pipeline.afterTail₀ cfgs (dats m) 0 (V0 m) [hostOps1, hostOps1_1, hostOps1_2, hostOps1_3, hostOps1_4, hostOps1_5, hostOps1_6, hostOps1_7] c main_v51
      = TailDef.tail (Cert.Collide.rewardCol (traj m c))
          (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Pipeline.afterTail₀
  refine (TailK.tailK _).trans ?_
  have h2 : Pipeline.withArrays (cfgs 0).spec c (V0 m c) (fun w => (dats m 0 c).arrAt w (cfgs 0).N) (Proc.devRef .tc main_v2)
      = Final.rewardArr (traj m c) :=
    (Pipeline.withArrays_arr spec0 launch0.win.arr_inj c _ _ 1).trans (Final.final m c)
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  have h5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans (V_main_arg5 m c)
  have h6 : Pipeline.withArrays (cfgs 0).spec c (V0 m c) (fun w => (dats m 0 c).arrAt w (cfgs 0).N) (Proc.devRef .tc main_arg6)
      = m ((c : Thread nD τ).loc main_arg6) :=
    (Pipeline.withArrays_of_ne _ c (V0 m c) _ main_arg6 (by exact (by decide : ∀ w, Pipeline.arrRef spec0 w ≠ main_arg6))).trans (V_main_arg6 m c)
  have h7 : Pipeline.withArrays (cfgs 0).spec c (V0 m c) (fun w => (dats m 0 c).arrAt w (cfgs 0).N) (Proc.devRef .tc main_arg7)
      = m ((c : Thread nD τ).loc main_arg7) :=
    (Pipeline.withArrays_of_ne _ c (V0 m c) _ main_arg7 (by exact (by decide : ∀ w, Pipeline.arrRef spec0 w ≠ main_arg7))).trans (V_main_arg7 m c)
  have h8 : Pipeline.withArrays (cfgs 0).spec c (V0 m c) (fun w => (dats m 0 c).arrAt w (cfgs 0).N) (Proc.devRef .tc main_arg8)
      = m ((c : Thread nD τ).loc main_arg8) :=
    (Pipeline.withArrays_of_ne _ c (V0 m c) _ main_arg8 (by exact (by decide : ∀ w, Pipeline.arrRef spec0 w ≠ main_arg8))).trans (V_main_arg8 m c)
  have h9 : Pipeline.withArrays (cfgs 0).spec c (V0 m c) (fun w => (dats m 0 c).arrAt w (cfgs 0).N) (Proc.devRef .tc main_arg9)
      = m ((c : Thread nD τ).loc main_arg9) :=
    (Pipeline.withArrays_of_ne _ c (V0 m c) _ main_arg9 (by exact (by decide : ∀ w, Pipeline.arrRef spec0 w ≠ main_arg9))).trans (V_main_arg9 m c)
  have h10 : Pipeline.withArrays (cfgs 0).spec c (V0 m c) (fun w => (dats m 0 c).arrAt w (cfgs 0).N) (Proc.devRef .tc main_arg10)
      = m ((c : Thread nD τ).loc main_arg10) :=
    (Pipeline.withArrays_of_ne _ c (V0 m c) _ main_arg10 (by exact (by decide : ∀ w, Pipeline.arrRef spec0 w ≠ main_arg10))).trans (V_main_arg10 m c)
  rw [h2, h3, h4, h5, h6, h7, h8, h9, h10, rewardArr_col]

/-- Every weakly fair execution of the idealized kernel program terminates with the result at the two layers of the
    reward column, the arguments unchanged. -/
theorem run : θ_run defs (onTc (τ := τ) (main (F := Ideal))) ⟨m, fun _ => 0, ρ⟩ (fun r => ∀ c : Dev nD,
      r.2.mem ((c.tc : Thread nD τ).loc main_v51) = TailDef.tail (Cert.Collide.rewardCol (traj m c))
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v51 (Pipeline.mem_restRefs_of main_v51 (by decide) (by decide))).trans (tail_read m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.Run

end
-- ==== Proof.RefOps.lean ====
/- The reference program's @main as a list of its host operations, the bodies of the functions it calls written out
   at the call sites over each call's own buffers (a call executes the callee's body on the operands). The list is cut
   where the reward column is complete: `opsHead` computes the column, `opsTail` (in eight stretches, cut at the calls)
   the two Linear → BatchNorm → ReLU layers applied to it. With each list, that its operations touch TensorCore
   references only. -/
import proofs.«115439_j82222853915257_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The collision reward: the pairwise displacements, their squared norms and distances, a zero distance replaced by 1/4 (the first `_where` call, its three operations listed in place), the minimum over the partner and over time, the comparison with 1/4 and one minus the indicator, as a column. (30 operations.) -/
abbrev opsHead : List (HloOp τ sig (Elt F)) :=
  [ StableHlo.reshape main_arg0 main_v0 rfl shapeCasts_S20x32768x2_S20x256x128x2,
    StableHlo.unary main_v0 main_v1 (broadcastInDim S20x256x128x1x2 ![0, 1, 2, 4] bcast_S20x256x128x2_S20x256x128x1x2_0_1_2_4 : (⟨S20x256x128x2, .f32⟩ : BufTy).Contents (Elt F) → (⟨S20x256x128x1x2, .f32⟩ : BufTy).Contents (Elt F)),
    StableHlo.unary main_v0 main_v2 (broadcastInDim S20x256x1x128x2 ![0, 1, 3, 4] bcast_S20x256x128x2_S20x256x1x128x2_0_1_3_4 : (⟨S20x256x128x2, .f32⟩ : BufTy).Contents (Elt F) → (⟨S20x256x1x128x2, .f32⟩ : BufTy).Contents (Elt F)),
    StableHlo.unary main_v1 main_v3 (broadcastInDim S20x256x128x128x2 ![0, 1, 2, 3, 4] bcast_S20x256x128x1x2_S20x256x128x128x2_0_1_2_3_4 : (⟨S20x256x128x1x2, .f32⟩ : BufTy).Contents (Elt F) → (⟨S20x256x128x128x2, .f32⟩ : BufTy).Contents (Elt F)),
    StableHlo.unary main_v2 main_v4 (broadcastInDim S20x256x128x128x2 ![0, 1, 2, 3, 4] bcast_S20x256x1x128x2_S20x256x128x128x2_0_1_2_3_4 : (⟨S20x256x1x128x2, .f32⟩ : BufTy).Contents (Elt F) → (⟨S20x256x128x128x2, .f32⟩ : BufTy).Contents (Elt F)),
    StableHlo.binary main_v3 main_v4 main_v5 (subf : (⟨S20x256x128x128x2, .f32⟩ : BufTy).Contents (Elt F) → (⟨S20x256x128x128x2, .f32⟩ : BufTy).Contents (Elt F) → (⟨S20x256x128x128x2, .f32⟩ : BufTy).Contents (Elt F)),
    StableHlo.binary main_v5 main_v5 main_v6 (mulf : (⟨S20x256x128x128x2, .f32⟩ : BufTy).Contents (Elt F) → (⟨S20x256x128x128x2, .f32⟩ : BufTy).Contents (Elt F) → (⟨S20x256x128x128x2, .f32⟩ : BufTy).Contents (Elt F)),
    StableHlo.nullary main_cst (constant S_ .f32 0x00000000#32),
    StableHlo.binary main_v6 main_cst main_v7 ((fun x v => Host.reduceAdd x v reducesTo_S20x256x128x128x2_S20x256x128x128_d4 h_S_) : (⟨S20x256x128x128x2, .f32⟩ : BufTy).Contents (Elt F) → (⟨S_, .f32⟩ : BufTy).Contents (Elt F) → (⟨S20x256x128x128, .f32⟩ : BufTy).Contents (Elt F)),
    StableHlo.unary main_v7 main_v8 (Host.sqrt : (⟨S20x256x128x128, .f32⟩ : BufTy).Contents (Elt F) → (⟨S20x256x128x128, .f32⟩ : BufTy).Contents (Elt F)),
    StableHlo.nullary main_cst_0 (constant S_ .f32 0x00000000#32),
    StableHlo.unary main_cst_0 main_v9 (broadcastInDim S20x256x128x128 ![] bcast_S_S20x256x128x128 : (⟨S_, .f32⟩ : BufTy).Contents (Elt F) → (⟨S20x256x128x128, .f32⟩ : BufTy).Contents (Elt F)),
    StableHlo.binary main_v8 main_v9 main_v10 (cmpf .oeq : (⟨S20x256x128x128, .f32⟩ : BufTy).Contents (Elt F) → (⟨S20x256x128x128, .f32⟩ : BufTy).Contents (Elt F) → (⟨S20x256x128x128, .i1⟩ : BufTy).Contents (Elt F)),
    StableHlo.nullary main_cst_1 (constant S_ .f32 0x3E800000#32),
    StableHlo.TRef.unary (.of main_cst_1 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S20x256x128x128, .f32⟩) (broadcastInDim S20x256x128x128 ![] bcast_S_S20x256x128x128),
    StableHlo.TRef.ternary (.of main_v10 : StableHlo.TRef sig ⟨S20x256x128x128, .i1⟩) (.of main_call0_v1 : StableHlo.TRef sig ⟨S20x256x128x128, .f32⟩) (.of main_v8 : StableHlo.TRef sig ⟨S20x256x128x128, .f32⟩) (.of main_v11 : StableHlo.TRef sig ⟨S20x256x128x128, .f32⟩) select,
    StableHlo.nullary main_cst_2 (constant S_ .f32 0x7F800000#32),
    StableHlo.binary main_v11 main_cst_2 main_v12 ((fun x v => Host.reduce FloatOps.minimumf x v reducesTo_S20x256x128x128_S20x256x128_d2 h_S_) : (⟨S20x256x128x128, .f32⟩ : BufTy).Contents (Elt F) → (⟨S_, .f32⟩ : BufTy).Contents (Elt F) → (⟨S20x256x128, .f32⟩ : BufTy).Contents (Elt F)),
    StableHlo.nullary main_cst_3 (constant S_ .f32 0x7F800000#32),
    StableHlo.binary main_v12 main_cst_3 main_v13 ((fun x v => Host.reduce FloatOps.minimumf x v reducesTo_S20x256x128_S256x128_d0 h_S_) : (⟨S20x256x128, .f32⟩ : BufTy).Contents (Elt F) → (⟨S_, .f32⟩ : BufTy).Contents (Elt F) → (⟨S256x128, .f32⟩ : BufTy).Contents (Elt F)),
    StableHlo.nullary main_cst_4 (constant S_ .f32 0x3E800000#32),
    StableHlo.unary main_cst_4 main_v14 (broadcastInDim S256x128 ![] bcast_S_S256x128 : (⟨S_, .f32⟩ : BufTy).Contents (Elt F) → (⟨S256x128, .f32⟩ : BufTy).Contents (Elt F)),
    StableHlo.binary main_v13 main_v14 main_v15 (cmpf .olt : (⟨S256x128, .f32⟩ : BufTy).Contents (Elt F) → (⟨S256x128, .f32⟩ : BufTy).Contents (Elt F) → (⟨S256x128, .i1⟩ : BufTy).Contents (Elt F)),
    StableHlo.unary main_v15 main_v16 (uitofp .f32 : (⟨S256x128, .i1⟩ : BufTy).Contents (Elt F) → (⟨S256x128, .f32⟩ : BufTy).Contents (Elt F)),
    StableHlo.reshape main_v16 main_v17 rfl shapeCasts_S256x128_S32768,
    StableHlo.nullary main_cst_5 (constant S_ .f32 0x3F800000#32),
    StableHlo.unary main_cst_5 main_v18 (broadcastInDim S32768 ![] bcast_S_S32768 : (⟨S_, .f32⟩ : BufTy).Contents (Elt F) → (⟨S32768, .f32⟩ : BufTy).Contents (Elt F)),
    StableHlo.binary main_v18 main_v17 main_v19 (subf : (⟨S32768, .f32⟩ : BufTy).Contents (Elt F) → (⟨S32768, .f32⟩ : BufTy).Contents (Elt F) → (⟨S32768, .f32⟩ : BufTy).Contents (Elt F)),
    StableHlo.unary main_v19 main_v20 (broadcastInDim S32768x1 ![0] bcast_S32768_S32768x1_0 : (⟨S32768, .f32⟩ : BufTy).Contents (Elt F) → (⟨S32768x1, .f32⟩ : BufTy).Contents (Elt F)) ]
theorem opsHead_sub : (opsHead : List (HloOp τ sig (Elt F))).Forall fun op => op.bufs ⊆ StableHlo.tcRefs τ sig :=
  ⟨StableHlo.reshape_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub ..⟩

/-- First linear layer and its batch mean: the product with the weight row, the bias added, the sum over the batch divided by 32768; then the integer zero passed to the variance. (10 operations.) -/
abbrev tail1 : List (HloOp τ sig (Elt F)) :=
  [ StableHlo.binary main_v20 main_arg3 main_v21 ((fun l r => Host.dotGeneral dot_S32768x1_S1x1024_S32768x1024_1_0_0_1_n_n none l r) : (⟨S32768x1, .f32⟩ : BufTy).Contents (Elt F) → (⟨S1x1024, .f32⟩ : BufTy).Contents (Elt F) → (⟨S32768x1024, .f32⟩ : BufTy).Contents (Elt F)),
    StableHlo.unary main_arg4 main_v22 (broadcastInDim S1x1024 ![1] bcast_S1024_S1x1024_1 : (⟨S1024, .f32⟩ : BufTy).Contents (Elt F) → (⟨S1x1024, .f32⟩ : BufTy).Contents (Elt F)),
    StableHlo.unary main_v22 main_v23 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v21 main_v23 main_v24 (addf : (⟨S32768x1024, .f32⟩ : BufTy).Contents (Elt F) → (⟨S32768x1024, .f32⟩ : BufTy).Contents (Elt F) → (⟨S32768x1024, .f32⟩ : BufTy).Contents (Elt F)),
    StableHlo.nullary main_cst_6 (constant S_ .f32 0x00000000#32),
    StableHlo.binary main_v24 main_cst_6 main_v25 ((fun x v => Host.reduceAdd x v reducesTo_S32768x1024_S1024_d0 h_S_) : (⟨S32768x1024, .f32⟩ : BufTy).Contents (Elt F) → (⟨S_, .f32⟩ : BufTy).Contents (Elt F) → (⟨S1024, .f32⟩ : BufTy).Contents (Elt F)),
    StableHlo.nullary main_cst_7 (constant S_ .f32 0x47000000#32),
    StableHlo.unary main_cst_7 main_v26 (broadcastInDim S1024 ![] bcast_S_S1024 : (⟨S_, .f32⟩ : BufTy).Contents (Elt F) → (⟨S1024, .f32⟩ : BufTy).Contents (Elt F)),
    StableHlo.binary main_v25 main_v26 main_v27 (Host.divf : (⟨S1024, .f32⟩ : BufTy).Contents (Elt F) → (⟨S1024, .f32⟩ : BufTy).Contents (Elt F) → (⟨S1024, .f32⟩ : BufTy).Contents (Elt F)),
    StableHlo.nullary main_c (constantI S_ 32 0#32) ]
theorem tail1_sub : (tail1 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩

/-- The first variance call, its body listed in place over the call's own buffers: the mean again, the centred squares, their sum divided by 32768 minus the correction, selected against the quiet NaN when that divisor is not positive (the nested `_where` call, three operations). (22 operations.) -/
abbrev tail2 : List (HloOp τ sig (Elt F)) :=
  [ StableHlo.TRef.nullary (.of main_call1_cst : StableHlo.TRef sig ⟨S_, .f32⟩) (constant S_ .f32 0x00000000#32),
    StableHlo.TRef.binary (.of main_v24 : StableHlo.TRef sig ⟨S32768x1024, .f32⟩) (.of main_call1_cst : StableHlo.TRef sig ⟨S_, .f32⟩) (.of main_call1_v0 : StableHlo.TRef sig ⟨S1024, .f32⟩) (fun x v => Host.reduceAdd x v reducesTo_S32768x1024_S1024_d0 h_S_),
    StableHlo.TRef.unary (.of main_call1_v0 : StableHlo.TRef sig ⟨S1024, .f32⟩) (.of main_call1_v1 : StableHlo.TRef sig ⟨S1x1024, .f32⟩) (broadcastInDim S1x1024 ![1] bcast_S1024_S1x1024_1),
    StableHlo.TRef.nullary (.of main_call1_cst_0 : StableHlo.TRef sig ⟨S_, .f32⟩) (constant S_ .f32 0x47000000#32),
    StableHlo.TRef.unary (.of main_call1_cst_0 : StableHlo.TRef sig ⟨S_, .f32⟩) (.of main_call1_v2 : StableHlo.TRef sig ⟨S1x1024, .f32⟩) (broadcastInDim S1x1024 ![] bcast_S_S1x1024),
    StableHlo.TRef.binary (.of main_call1_v1 : StableHlo.TRef sig ⟨S1x1024, .f32⟩) (.of main_call1_v2 : StableHlo.TRef sig ⟨S1x1024, .f32⟩) (.of main_call1_v3 : StableHlo.TRef sig ⟨S1x1024, .f32⟩) Host.divf,
    StableHlo.TRef.unary (.of main_call1_v3 : StableHlo.TRef sig ⟨S1x1024, .f32⟩) (.of main_call1_v4 : StableHlo.TRef sig ⟨S32768x1024, .f32⟩) (broadcastInDim S32768x1024 ![0, 1] bcast_S1x1024_S32768x1024_0_1),
    StableHlo.TRef.binary (.of main_v24 : StableHlo.TRef sig ⟨S32768x1024, .f32⟩) (.of main_call1_v4 : StableHlo.TRef sig ⟨S32768x1024, .f32⟩) (.of main_call1_v5 : StableHlo.TRef sig ⟨S32768x1024, .f32⟩) subf,
    StableHlo.TRef.binary (.of main_call1_v5 : StableHlo.TRef sig ⟨S32768x1024, .f32⟩) (.of main_call1_v5 : StableHlo.TRef sig ⟨S32768x1024, .f32⟩) (.of main_call1_v6 : StableHlo.TRef sig ⟨S32768x1024, .f32⟩) mulf,
    StableHlo.TRef.unary (.of main_c : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47000000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S32768x1024, .f32⟩) (.of main_call1_cst_2 : StableHlo.TRef sig ⟨S_, .f32⟩) (.of main_call1_v9 : StableHlo.TRef sig ⟨S1024, .f32⟩) (fun x v => Host.reduceAdd x v reducesTo_S32768x1024_S1024_d0 h_S_),
    StableHlo.TRef.unary (.of main_call1_v8 : StableHlo.TRef sig ⟨S_, .f32⟩) (.of main_call1_v10 : StableHlo.TRef sig ⟨S1024, .f32⟩) (broadcastInDim S1024 ![] bcast_S_S1024),
    StableHlo.TRef.binary (.of main_call1_v9 : StableHlo.TRef sig ⟨S1024, .f32⟩) (.of main_call1_v10 : StableHlo.TRef sig ⟨S1024, .f32⟩) (.of main_call1_v11 : StableHlo.TRef sig ⟨S1024, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S1024, .f32⟩) (broadcastInDim S1024 ![] bcast_S_S1024),
    StableHlo.TRef.ternary (.of main_call1_v12 : StableHlo.TRef sig ⟨S_, .i1⟩) (.of main_call1_v11 : StableHlo.TRef sig ⟨S1024, .f32⟩) (.of main_call1_call0_v1 : StableHlo.TRef sig ⟨S1024, .f32⟩) (.of main_v28 : StableHlo.TRef sig ⟨S1024, .f32⟩) (fun p a b => select (broadcastInDim S1024 ![] bcast_S_S1024 p) a b) ]
theorem tail2_sub : (tail2 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

/-- First normalisation: centred activations times the scale, times the reciprocal square root of variance plus epsilon, plus the shift. (16 operations.) -/
abbrev tail3 : List (HloOp τ sig (Elt F)) :=
  [ StableHlo.unary main_v27 main_v29 (broadcastInDim S1x1024 ![1] bcast_S1024_S1x1024_1 : (⟨S1024, .f32⟩ : BufTy).Contents (Elt F) → (⟨S1x1024, .f32⟩ : BufTy).Contents (Elt F)),
    StableHlo.unary main_v29 main_v30 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v24 main_v30 main_v31 (subf : (⟨S32768x1024, .f32⟩ : BufTy).Contents (Elt F) → (⟨S32768x1024, .f32⟩ : BufTy).Contents (Elt F) → (⟨S32768x1024, .f32⟩ : BufTy).Contents (Elt F)),
    StableHlo.unary main_arg5 main_v32 (broadcastInDim S1x1024 ![1] bcast_S1024_S1x1024_1 : (⟨S1024, .f32⟩ : BufTy).Contents (Elt F) → (⟨S1x1024, .f32⟩ : BufTy).Contents (Elt F)),
    StableHlo.unary main_v32 main_v33 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v33 main_v31 main_v34 (mulf : (⟨S32768x1024, .f32⟩ : BufTy).Contents (Elt F) → (⟨S32768x1024, .f32⟩ : BufTy).Contents (Elt F) → (⟨S32768x1024, .f32⟩ : BufTy).Contents (Elt F)),
    StableHlo.nullary main_cst_8 (constant S_ .f32 0x3727C5AC#32),
    StableHlo.unary main_cst_8 main_v35 (broadcastInDim S1024 ![] bcast_S_S1024 : (⟨S_, .f32⟩ : BufTy).Contents (Elt F) → (⟨S1024, .f32⟩ : BufTy).Contents (Elt F)),
    StableHlo.binary main_v28 main_v35 main_v36 (addf : (⟨S1024, .f32⟩ : BufTy).Contents (Elt F) → (⟨S1024, .f32⟩ : BufTy).Contents (Elt F) → (⟨S1024, .f32⟩ : BufTy).Contents (Elt F)),
    StableHlo.unary main_v36 main_v37 (Host.rsqrt : (⟨S1024, .f32⟩ : BufTy).Contents (Elt F) → (⟨S1024, .f32⟩ : BufTy).Contents (Elt F)),
    StableHlo.unary main_v37 main_v38 (broadcastInDim S1x1024 ![1] bcast_S1024_S1x1024_1 : (⟨S1024, .f32⟩ : BufTy).Contents (Elt F) → (⟨S1x1024, .f32⟩ : BufTy).Contents (Elt F)),
    StableHlo.unary main_v38 main_v39 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v34 main_v39 main_v40 (mulf : (⟨S32768x1024, .f32⟩ : BufTy).Contents (Elt F) → (⟨S32768x1024, .f32⟩ : BufTy).Contents (Elt F) → (⟨S32768x1024, .f32⟩ : BufTy).Contents (Elt F)),
    StableHlo.unary main_arg6 main_v41 (broadcastInDim S1x1024 ![1] bcast_S1024_S1x1024_1 : (⟨S1024, .f32⟩ : BufTy).Contents (Elt F) → (⟨S1x1024, .f32⟩ : BufTy).Contents (Elt F)),
    StableHlo.unary main_v41 main_v42 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v40 main_v42 main_v43 (addf : (⟨S32768x1024, .f32⟩ : BufTy).Contents (Elt F) → (⟨S32768x1024, .f32⟩ : BufTy).Contents (Elt F) → (⟨S32768x1024, .f32⟩ : BufTy).Contents (Elt F)) ]
theorem tail3_sub : (tail3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩

/-- First rectifier call: the maximum with zero. (3 operations.) -/
abbrev tail4 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S32768x1024, .f32⟩) (broadcastInDim S32768x1024 ![] bcast_S_S32768x1024),
    StableHlo.TRef.binary (.of main_v43 : StableHlo.TRef sig ⟨S32768x1024, .f32⟩) (.of main_call2_v0 : StableHlo.TRef sig ⟨S32768x1024, .f32⟩) (.of main_v44 : StableHlo.TRef sig ⟨S32768x1024, .f32⟩) maximumf ]
theorem tail4_sub : (tail4 : List (HloOp τ sig (Elt F))).Forall fun op => op.bufs ⊆ StableHlo.tcRefs τ sig :=
  ⟨StableHlo.nullary_bufs_sub .., StableHlo.unary_bufs_sub .., StableHlo.binary_bufs_sub ..⟩

/-- Second linear layer and its batch mean, and the integer zero passed to the variance. (10 operations.) -/
abbrev tail5 : List (HloOp τ sig (Elt F)) :=
  [ StableHlo.binary main_v44 main_arg7 main_v45 ((fun l r => Host.dotGeneral dot_S32768x1024_S1024x1_S32768x1_1_0_0_1_n_n none l r) : (⟨S32768x1024, .f32⟩ : BufTy).Contents (Elt F) → (⟨S1024x1, .f32⟩ : BufTy).Contents (Elt F) → (⟨S32768x1, .f32⟩ : BufTy).Contents (Elt F)),
    StableHlo.unary main_arg8 main_v46 (broadcastInDim S1x1 ![1] bcast_S1_S1x1_1 : (⟨S1, .f32⟩ : BufTy).Contents (Elt F) → (⟨S1x1, .f32⟩ : BufTy).Contents (Elt F)),
    StableHlo.unary main_v46 main_v47 (broadcastInDim S32768x1 ![0, 1] bcast_S1x1_S32768x1_0_1 : (⟨S1x1, .f32⟩ : BufTy).Contents (Elt F) → (⟨S32768x1, .f32⟩ : BufTy).Contents (Elt F)),
    StableHlo.binary main_v45 main_v47 main_v48 (addf : (⟨S32768x1, .f32⟩ : BufTy).Contents (Elt F) → (⟨S32768x1, .f32⟩ : BufTy).Contents (Elt F) → (⟨S32768x1, .f32⟩ : BufTy).Contents (Elt F)),
    StableHlo.nullary main_cst_9 (constant S_ .f32 0x00000000#32),
    StableHlo.binary main_v48 main_cst_9 main_v49 ((fun x v => Host.reduceAdd x v reducesTo_S32768x1_S1_d0 h_S_) : (⟨S32768x1, .f32⟩ : BufTy).Contents (Elt F) → (⟨S_, .f32⟩ : BufTy).Contents (Elt F) → (⟨S1, .f32⟩ : BufTy).Contents (Elt F)),
    StableHlo.nullary main_cst_10 (constant S_ .f32 0x47000000#32),
    StableHlo.unary main_cst_10 main_v50 (broadcastInDim S1 ![] bcast_S_S1 : (⟨S_, .f32⟩ : BufTy).Contents (Elt F) → (⟨S1, .f32⟩ : BufTy).Contents (Elt F)),
    StableHlo.binary main_v49 main_v50 main_v51 (Host.divf : (⟨S1, .f32⟩ : BufTy).Contents (Elt F) → (⟨S1, .f32⟩ : BufTy).Contents (Elt F) → (⟨S1, .f32⟩ : BufTy).Contents (Elt F)),
    StableHlo.nullary main_c_11 (constantI S_ 32 0#32) ]
theorem tail5_sub : (tail5 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩

/-- The second variance call, listed in place as the first. (22 operations.) -/
abbrev tail6 : List (HloOp τ sig (Elt F)) :=
  [ StableHlo.TRef.nullary (.of main_call3_cst : StableHlo.TRef sig ⟨S_, .f32⟩) (constant S_ .f32 0x00000000#32),
    StableHlo.TRef.binary (.of main_v48 : StableHlo.TRef sig ⟨S32768x1, .f32⟩) (.of main_call3_cst : StableHlo.TRef sig ⟨S_, .f32⟩) (.of main_call3_v0 : StableHlo.TRef sig ⟨S1, .f32⟩) (fun x v => Host.reduceAdd x v reducesTo_S32768x1_S1_d0 h_S_),
    StableHlo.TRef.unary (.of main_call3_v0 : StableHlo.TRef sig ⟨S1, .f32⟩) (.of main_call3_v1 : StableHlo.TRef sig ⟨S1x1, .f32⟩) (broadcastInDim S1x1 ![1] bcast_S1_S1x1_1),
    StableHlo.TRef.nullary (.of main_call3_cst_0 : StableHlo.TRef sig ⟨S_, .f32⟩) (constant S_ .f32 0x47000000#32),
    StableHlo.TRef.unary (.of main_call3_cst_0 : StableHlo.TRef sig ⟨S_, .f32⟩) (.of main_call3_v2 : StableHlo.TRef sig ⟨S1x1, .f32⟩) (broadcastInDim S1x1 ![] bcast_S_S1x1),
    StableHlo.TRef.binary (.of main_call3_v1 : StableHlo.TRef sig ⟨S1x1, .f32⟩) (.of main_call3_v2 : StableHlo.TRef sig ⟨S1x1, .f32⟩) (.of main_call3_v3 : StableHlo.TRef sig ⟨S1x1, .f32⟩) Host.divf,
    StableHlo.TRef.unary (.of main_call3_v3 : StableHlo.TRef sig ⟨S1x1, .f32⟩) (.of main_call3_v4 : StableHlo.TRef sig ⟨S32768x1, .f32⟩) (broadcastInDim S32768x1 ![0, 1] bcast_S1x1_S32768x1_0_1),
    StableHlo.TRef.binary (.of main_v48 : StableHlo.TRef sig ⟨S32768x1, .f32⟩) (.of main_call3_v4 : StableHlo.TRef sig ⟨S32768x1, .f32⟩) (.of main_call3_v5 : StableHlo.TRef sig ⟨S32768x1, .f32⟩) subf,
    StableHlo.TRef.binary (.of main_call3_v5 : StableHlo.TRef sig ⟨S32768x1, .f32⟩) (.of main_call3_v5 : StableHlo.TRef sig ⟨S32768x1, .f32⟩) (.of main_call3_v6 : StableHlo.TRef sig ⟨S32768x1, .f32⟩) mulf,
    StableHlo.TRef.unary (.of main_c_11 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x47000000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S32768x1, .f32⟩) (.of main_call3_cst_2 : StableHlo.TRef sig ⟨S_, .f32⟩) (.of main_call3_v9 : StableHlo.TRef sig ⟨S1, .f32⟩) (fun x v => Host.reduceAdd x v reducesTo_S32768x1_S1_d0 h_S_),
    StableHlo.TRef.unary (.of main_call3_v8 : StableHlo.TRef sig ⟨S_, .f32⟩) (.of main_call3_v10 : StableHlo.TRef sig ⟨S1, .f32⟩) (broadcastInDim S1 ![] bcast_S_S1),
    StableHlo.TRef.binary (.of main_call3_v9 : StableHlo.TRef sig ⟨S1, .f32⟩) (.of main_call3_v10 : StableHlo.TRef sig ⟨S1, .f32⟩) (.of main_call3_v11 : StableHlo.TRef sig ⟨S1, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S1, .f32⟩) (broadcastInDim S1 ![] bcast_S_S1),
    StableHlo.TRef.ternary (.of main_call3_v12 : StableHlo.TRef sig ⟨S_, .i1⟩) (.of main_call3_v11 : StableHlo.TRef sig ⟨S1, .f32⟩) (.of main_call3_call0_v1 : StableHlo.TRef sig ⟨S1, .f32⟩) (.of main_v52 : StableHlo.TRef sig ⟨S1, .f32⟩) (fun p a b => select (broadcastInDim S1 ![] bcast_S_S1 p) a b) ]
theorem tail6_sub : (tail6 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

/-- Second normalisation. (16 operations.) -/
abbrev tail7 : List (HloOp τ sig (Elt F)) :=
  [ StableHlo.unary main_v51 main_v53 (broadcastInDim S1x1 ![1] bcast_S1_S1x1_1 : (⟨S1, .f32⟩ : BufTy).Contents (Elt F) → (⟨S1x1, .f32⟩ : BufTy).Contents (Elt F)),
    StableHlo.unary main_v53 main_v54 (broadcastInDim S32768x1 ![0, 1] bcast_S1x1_S32768x1_0_1 : (⟨S1x1, .f32⟩ : BufTy).Contents (Elt F) → (⟨S32768x1, .f32⟩ : BufTy).Contents (Elt F)),
    StableHlo.binary main_v48 main_v54 main_v55 (subf : (⟨S32768x1, .f32⟩ : BufTy).Contents (Elt F) → (⟨S32768x1, .f32⟩ : BufTy).Contents (Elt F) → (⟨S32768x1, .f32⟩ : BufTy).Contents (Elt F)),
    StableHlo.unary main_arg9 main_v56 (broadcastInDim S1x1 ![1] bcast_S1_S1x1_1 : (⟨S1, .f32⟩ : BufTy).Contents (Elt F) → (⟨S1x1, .f32⟩ : BufTy).Contents (Elt F)),
    StableHlo.unary main_v56 main_v57 (broadcastInDim S32768x1 ![0, 1] bcast_S1x1_S32768x1_0_1 : (⟨S1x1, .f32⟩ : BufTy).Contents (Elt F) → (⟨S32768x1, .f32⟩ : BufTy).Contents (Elt F)),
    StableHlo.binary main_v57 main_v55 main_v58 (mulf : (⟨S32768x1, .f32⟩ : BufTy).Contents (Elt F) → (⟨S32768x1, .f32⟩ : BufTy).Contents (Elt F) → (⟨S32768x1, .f32⟩ : BufTy).Contents (Elt F)),
    StableHlo.nullary main_cst_12 (constant S_ .f32 0x3727C5AC#32),
    StableHlo.unary main_cst_12 main_v59 (broadcastInDim S1 ![] bcast_S_S1 : (⟨S_, .f32⟩ : BufTy).Contents (Elt F) → (⟨S1, .f32⟩ : BufTy).Contents (Elt F)),
    StableHlo.binary main_v52 main_v59 main_v60 (addf : (⟨S1, .f32⟩ : BufTy).Contents (Elt F) → (⟨S1, .f32⟩ : BufTy).Contents (Elt F) → (⟨S1, .f32⟩ : BufTy).Contents (Elt F)),
    StableHlo.unary main_v60 main_v61 (Host.rsqrt : (⟨S1, .f32⟩ : BufTy).Contents (Elt F) → (⟨S1, .f32⟩ : BufTy).Contents (Elt F)),
    StableHlo.unary main_v61 main_v62 (broadcastInDim S1x1 ![1] bcast_S1_S1x1_1 : (⟨S1, .f32⟩ : BufTy).Contents (Elt F) → (⟨S1x1, .f32⟩ : BufTy).Contents (Elt F)),
    StableHlo.unary main_v62 main_v63 (broadcastInDim S32768x1 ![0, 1] bcast_S1x1_S32768x1_0_1 : (⟨S1x1, .f32⟩ : BufTy).Contents (Elt F) → (⟨S32768x1, .f32⟩ : BufTy).Contents (Elt F)),
    StableHlo.binary main_v58 main_v63 main_v64 (mulf : (⟨S32768x1, .f32⟩ : BufTy).Contents (Elt F) → (⟨S32768x1, .f32⟩ : BufTy).Contents (Elt F) → (⟨S32768x1, .f32⟩ : BufTy).Contents (Elt F)),
    StableHlo.unary main_arg10 main_v65 (broadcastInDim S1x1 ![1] bcast_S1_S1x1_1 : (⟨S1, .f32⟩ : BufTy).Contents (Elt F) → (⟨S1x1, .f32⟩ : BufTy).Contents (Elt F)),
    StableHlo.unary main_v65 main_v66 (broadcastInDim S32768x1 ![0, 1] bcast_S1x1_S32768x1_0_1 : (⟨S1x1, .f32⟩ : BufTy).Contents (Elt F) → (⟨S32768x1, .f32⟩ : BufTy).Contents (Elt F)),
    StableHlo.binary main_v64 main_v66 main_v67 (addf : (⟨S32768x1, .f32⟩ : BufTy).Contents (Elt F) → (⟨S32768x1, .f32⟩ : BufTy).Contents (Elt F) → (⟨S32768x1, .f32⟩ : BufTy).Contents (Elt F)) ]
theorem tail7_sub : (tail7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩

/-- Second rectifier call: the maximum with zero, the program's result. (3 operations.) -/
abbrev tail8 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S32768x1, .f32⟩) (broadcastInDim S32768x1 ![] bcast_S_S32768x1),
    StableHlo.TRef.binary (.of main_v67 : StableHlo.TRef sig ⟨S32768x1, .f32⟩) (.of main_call4_v0 : StableHlo.TRef sig ⟨S32768x1, .f32⟩) (.of main_v68 : StableHlo.TRef sig ⟨S32768x1, .f32⟩) maximumf ]
theorem tail8_sub : (tail8 : List (HloOp τ sig (Elt F))).Forall fun op => op.bufs ⊆ StableHlo.tcRefs τ sig :=
  ⟨StableHlo.nullary_bufs_sub .., StableHlo.unary_bufs_sub .., StableHlo.binary_bufs_sub ..⟩

/-- The two layers after the reward column: every operation from the first matrix product to the result. -/
abbrev opsTail : List (HloOp τ sig (Elt F)) :=
  tail1 ++ tail2 ++ tail3 ++ tail4 ++ tail5 ++ tail6 ++ tail7 ++ tail8

/-- @main's 132 operations, in order. -/
abbrev ops : List (HloOp τ sig (Elt F)) := opsHead ++ opsTail

end Cert.ReferenceIdeal.RefRun

end
-- ==== Proof.RefRun.lean ====
/- The reference program's run, read back over the list of its operations (`RefRun.ops`, the imported module): @main IS
   that straight line; every weakly fair execution terminates with each buffer at the fold of the operations' results
   over the launch contents; and no operation writes an argument, so the eleven arguments end as the launch dealt them. -/
import proofs.«115439_j82222853915257_2_alg».proof.Proof.RefOps

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- @main is that straight line: each call unfolds to its callee's body over the call's buffers, and sequencing
    re-associates. -/
theorem main_eq (c : Dev nD) : main (F := F) c = StableHlo.seq ops := rfl

theorem scopedRefs_eq : (Finset.univ.filter fun b : Ref sig .tc => b.isScoped) = ∅ := by decide
theorem scopedSems_eq : (Finset.univ.filter fun sm : SemLoc sig => sm.isScoped .tc) = ∅ := by decide

theorem opsTail_sub : (opsTail : List (HloOp τ sig (Elt F))).Forall fun op => op.bufs ⊆ StableHlo.tcRefs τ sig := by
  simp only [opsTail, List.forall_append]
  exact ⟨⟨⟨⟨⟨⟨⟨tail1_sub, tail2_sub⟩, tail3_sub⟩, tail4_sub⟩, tail5_sub⟩, tail6_sub⟩, tail7_sub⟩, tail8_sub⟩

theorem ops_sub : (ops : List (HloOp τ sig (Elt F))).Forall fun op => op.bufs ⊆ StableHlo.tcRefs τ sig :=
  List.forall_append.mpr ⟨opsHead_sub, opsTail_sub⟩

/-- On every device, for any float values, from any memory with zero counters: every weakly fair execution of @main
    terminates, and each buffer ends at the fold of the operations' results over the launch contents. -/
theorem run_all (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after ops (StableHlo.launchContents m d) (Proc.devRef .tc b) :=
  StableHlo.run_seq scopedRefs_eq scopedSems_eq defs main (fun _ => ops) main_eq (fun _ => ops_sub) m ρ

/-! No operation writes an argument: each writes the one buffer of the value it defines, a buffer other than the
    eleven arguments', so the fold leaves the arguments' contents as they were. -/

/-- A buffer that differs, as a reference, from the buffer each operation writes is left alone by the fold. -/
local macro "kept_by_distinct" : tactic =>
  `(tactic| exact StableHlo.after_of_forall_not_mem ops _ (List.forall_iff_forall_mem.mp (by
      simp only [ops, opsHead, opsTail, tail1, tail2, tail3, tail4, tail5, tail6, tail7, tail8, List.cons_append,
        List.nil_append, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

theorem kept_arg0 (V : Valuation τ sig (Elt F)) :
    StableHlo.after ops V (Proc.devRef .tc main_arg0) = V (Proc.devRef .tc main_arg0) := by kept_by_distinct
theorem kept_arg1 (V : Valuation τ sig (Elt F)) :
    StableHlo.after ops V (Proc.devRef .tc main_arg1) = V (Proc.devRef .tc main_arg1) := by kept_by_distinct
theorem kept_arg2 (V : Valuation τ sig (Elt F)) :
    StableHlo.after ops V (Proc.devRef .tc main_arg2) = V (Proc.devRef .tc main_arg2) := by kept_by_distinct
theorem kept_arg3 (V : Valuation τ sig (Elt F)) :
    StableHlo.after ops V (Proc.devRef .tc main_arg3) = V (Proc.devRef .tc main_arg3) := by kept_by_distinct
theorem kept_arg4 (V : Valuation τ sig (Elt F)) :
    StableHlo.after ops V (Proc.devRef .tc main_arg4) = V (Proc.devRef .tc main_arg4) := by kept_by_distinct
theorem kept_arg5 (V : Valuation τ sig (Elt F)) :
    StableHlo.after ops V (Proc.devRef .tc main_arg5) = V (Proc.devRef .tc main_arg5) := by kept_by_distinct
theorem kept_arg6 (V : Valuation τ sig (Elt F)) :
    StableHlo.after ops V (Proc.devRef .tc main_arg6) = V (Proc.devRef .tc main_arg6) := by kept_by_distinct
theorem kept_arg7 (V : Valuation τ sig (Elt F)) :
    StableHlo.after ops V (Proc.devRef .tc main_arg7) = V (Proc.devRef .tc main_arg7) := by kept_by_distinct
theorem kept_arg8 (V : Valuation τ sig (Elt F)) :
    StableHlo.after ops V (Proc.devRef .tc main_arg8) = V (Proc.devRef .tc main_arg8) := by kept_by_distinct
theorem kept_arg9 (V : Valuation τ sig (Elt F)) :
    StableHlo.after ops V (Proc.devRef .tc main_arg9) = V (Proc.devRef .tc main_arg9) := by kept_by_distinct
theorem kept_arg10 (V : Valuation τ sig (Elt F)) :
    StableHlo.after ops V (Proc.devRef .tc main_arg10) = V (Proc.devRef .tc main_arg10) := by kept_by_distinct

/-- The run leaves the eleven arguments as the launch dealt them. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
      ⟨(h c main_arg0).trans (kept_arg0 _), (h c main_arg1).trans (kept_arg1 _), (h c main_arg2).trans (kept_arg2 _),
       (h c main_arg3).trans (kept_arg3 _), (h c main_arg4).trans (kept_arg4 _), (h c main_arg5).trans (kept_arg5 _),
       (h c main_arg6).trans (kept_arg6 _), (h c main_arg7).trans (kept_arg7 _), (h c main_arg8).trans (kept_arg8 _),
       (h c main_arg9).trans (kept_arg9 _), (h c main_arg10).trans (kept_arg10 _)⟩)
    (run_all m ρ)

end Cert.ReferenceIdeal.RefRun

end
-- ==== Proof.RefHead.lean ====
/-
  The reference's reward column, read index by index.

  The reference computes, from the trajectory array, the pairwise coordinate differences of the pedestrians of a scene,
  their squares summed over the two coordinates, the square root, a zero distance replaced by the threshold, the
  minimum over the first pedestrian and then over time, the indicator that this minimum is below the threshold, and
  one minus it as a column. `refHead` is that composition as one term of the array; `refHead_eq` reads it at each index:
  it is the reward column of `Cert.Collide`. The reading goes stage by stage — the split of the pedestrian axis into scene
  and pedestrian is a row-major re-indexing, the two broadcasts place pedestrian `p` on one axis and pedestrian `q` on
  the next, the sum over the coordinate axis has two terms, and each minimum over an axis is an infimum over that
  axis's coordinates. The reference takes the minimum over the FIRST pedestrian; the distance is symmetric, so that is
  the least distance from the second.
-/
import proofs.«115439_j82222853915257_2_alg».proof.ReferenceIdeal
import proofs.«115439_j82222853915257_2_alg».proof.Proof.Spec
import proofs.«115439_j82222853915257_2_alg».proof.Proof.LibMinReduce
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.ReferenceIdeal.RefHead

open Cert.ReferenceIdeal Cert.ReferenceIdeal.Facts₀ Idealize.ShloMosaic Idealize.ShloMosaic.ValueIdx

variable [Cert.ReferenceIdeal.Facts]

/-- The reference's operations from the reshape of the trajectory array to the reward column, composed. -/
def refHead (X : FVec Ideal S20x32768x2 .f32) : FVec Ideal S32768x1 .f32 :=
  broadcastInDim S32768x1 ![0] bcast_S32768_S32768x1_0 (subf (F := Ideal) (broadcastInDim S32768 ![] bcast_S_S32768 (constant (F := Ideal) S_ .f32 0x3F800000#32)) (shapeCast S32768 (uitofp (F := Ideal) .f32 (cmpf (F := Ideal) .olt (Host.reduce (FloatOps.minimumf (F := Ideal) (φ := .f32)) (Host.reduce (FloatOps.minimumf (F := Ideal) (φ := .f32)) (select (cmpf (F := Ideal) .oeq (Host.sqrt (F := Ideal) (Host.reduceAdd (F := Ideal) (mulf (F := Ideal) (subf (F := Ideal) (broadcastInDim S20x256x128x128x2 ![0, 1, 2, 3, 4] bcast_S20x256x128x1x2_S20x256x128x128x2_0_1_2_3_4 (broadcastInDim S20x256x128x1x2 ![0, 1, 2, 4] bcast_S20x256x128x2_S20x256x128x1x2_0_1_2_4 (shapeCast S20x256x128x2 X shapeCasts_S20x32768x2_S20x256x128x2))) (broadcastInDim S20x256x128x128x2 ![0, 1, 2, 3, 4] bcast_S20x256x1x128x2_S20x256x128x128x2_0_1_2_3_4 (broadcastInDim S20x256x1x128x2 ![0, 1, 3, 4] bcast_S20x256x128x2_S20x256x1x128x2_0_1_3_4 (shapeCast S20x256x128x2 X shapeCasts_S20x32768x2_S20x256x128x2)))) (subf (F := Ideal) (broadcastInDim S20x256x128x128x2 ![0, 1, 2, 3, 4] bcast_S20x256x128x1x2_S20x256x128x128x2_0_1_2_3_4 (broadcastInDim S20x256x128x1x2 ![0, 1, 2, 4] bcast_S20x256x128x2_S20x256x128x1x2_0_1_2_4 (shapeCast S20x256x128x2 X shapeCasts_S20x32768x2_S20x256x128x2))) (broadcastInDim S20x256x128x128x2 ![0, 1, 2, 3, 4] bcast_S20x256x1x128x2_S20x256x128x128x2_0_1_2_3_4 (broadcastInDim S20x256x1x128x2 ![0, 1, 3, 4] bcast_S20x256x128x2_S20x256x1x128x2_0_1_3_4 (shapeCast S20x256x128x2 X shapeCasts_S20x32768x2_S20x256x128x2))))) (constant (F := Ideal) S_ .f32 0x00000000#32) reducesTo_S20x256x128x128x2_S20x256x128x128_d4 h_S_)) (broadcastInDim S20x256x128x128 ![] bcast_S_S20x256x128x128 (constant (F := Ideal) S_ .f32 0x00000000#32))) (broadcastInDim S20x256x128x128 ![] bcast_S_S20x256x128x128 (id (constant (F := Ideal) S_ .f32 0x3E800000#32))) (Host.sqrt (F := Ideal) (Host.reduceAdd (F := Ideal) (mulf (F := Ideal) (subf (F := Ideal) (broadcastInDim S20x256x128x128x2 ![0, 1, 2, 3, 4] bcast_S20x256x128x1x2_S20x256x128x128x2_0_1_2_3_4 (broadcastInDim S20x256x128x1x2 ![0, 1, 2, 4] bcast_S20x256x128x2_S20x256x128x1x2_0_1_2_4 (shapeCast S20x256x128x2 X shapeCasts_S20x32768x2_S20x256x128x2))) (broadcastInDim S20x256x128x128x2 ![0, 1, 2, 3, 4] bcast_S20x256x1x128x2_S20x256x128x128x2_0_1_2_3_4 (broadcastInDim S20x256x1x128x2 ![0, 1, 3, 4] bcast_S20x256x128x2_S20x256x1x128x2_0_1_3_4 (shapeCast S20x256x128x2 X shapeCasts_S20x32768x2_S20x256x128x2)))) (subf (F := Ideal) (broadcastInDim S20x256x128x128x2 ![0, 1, 2, 3, 4] bcast_S20x256x128x1x2_S20x256x128x128x2_0_1_2_3_4 (broadcastInDim S20x256x128x1x2 ![0, 1, 2, 4] bcast_S20x256x128x2_S20x256x128x1x2_0_1_2_4 (shapeCast S20x256x128x2 X shapeCasts_S20x32768x2_S20x256x128x2))) (broadcastInDim S20x256x128x128x2 ![0, 1, 2, 3, 4] bcast_S20x256x1x128x2_S20x256x128x128x2_0_1_2_3_4 (broadcastInDim S20x256x1x128x2 ![0, 1, 3, 4] bcast_S20x256x128x2_S20x256x1x128x2_0_1_3_4 (shapeCast S20x256x128x2 X shapeCasts_S20x32768x2_S20x256x128x2))))) (constant (F := Ideal) S_ .f32 0x00000000#32) reducesTo_S20x256x128x128x2_S20x256x128x128_d4 h_S_))) (constant (F := Ideal) S_ .f32 0x7F800000#32) reducesTo_S20x256x128x128_S20x256x128_d2 h_S_) (constant (F := Ideal) S_ .f32 0x7F800000#32) reducesTo_S20x256x128_S256x128_d0 h_S_) (broadcastInDim S256x128 ![] bcast_S_S256x128 (constant (F := Ideal) S_ .f32 0x3E800000#32)))) shapeCasts_S256x128_S32768))

/-! ## The stages of the composition -/

/-- The trajectory array with the pedestrian axis split into scene and pedestrian. -/
def sX (X : FVec Ideal S20x32768x2 .f32) : FVec Ideal S20x256x128x2 .f32 :=
  shapeCast S20x256x128x2 X shapeCasts_S20x32768x2_S20x256x128x2

/-- The coordinate differences of every pair of pedestrians of a scene. -/
def sD (X : FVec Ideal S20x32768x2 .f32) : FVec Ideal S20x256x128x128x2 .f32 :=
  subf (F := Ideal) (broadcastInDim S20x256x128x128x2 ![0, 1, 2, 3, 4] bcast_S20x256x128x1x2_S20x256x128x128x2_0_1_2_3_4 (broadcastInDim S20x256x128x1x2 ![0, 1, 2, 4] bcast_S20x256x128x2_S20x256x128x1x2_0_1_2_4 (sX X)))
    (broadcastInDim S20x256x128x128x2 ![0, 1, 2, 3, 4] bcast_S20x256x1x128x2_S20x256x128x128x2_0_1_2_3_4 (broadcastInDim S20x256x1x128x2 ![0, 1, 3, 4] bcast_S20x256x128x2_S20x256x1x128x2_0_1_3_4 (sX X)))

/-- The distances of every pair. -/
def sN (X : FVec Ideal S20x32768x2 .f32) : FVec Ideal S20x256x128x128 .f32 :=
  Host.sqrt (F := Ideal) (Host.reduceAdd (F := Ideal) (mulf (F := Ideal) (sD X) (sD X)) (constant (F := Ideal) S_ .f32 0x00000000#32) reducesTo_S20x256x128x128x2_S20x256x128x128_d4 h_S_)

/-- The distances, a zero replaced by the threshold. -/
def sC (X : FVec Ideal S20x32768x2 .f32) : FVec Ideal S20x256x128x128 .f32 :=
  select (cmpf (F := Ideal) .oeq (sN X) (broadcastInDim S20x256x128x128 ![] bcast_S_S20x256x128x128 (constant (F := Ideal) S_ .f32 0x00000000#32)))
    (broadcastInDim S20x256x128x128 ![] bcast_S_S20x256x128x128 (id (constant (F := Ideal) S_ .f32 0x3E800000#32))) (sN X)

/-- The minimum over the first pedestrian, then over time. -/
def sM (X : FVec Ideal S20x32768x2 .f32) : FVec Ideal S256x128 .f32 :=
  Host.reduce (FloatOps.minimumf (F := Ideal) (φ := .f32)) (Host.reduce (FloatOps.minimumf (F := Ideal) (φ := .f32)) (sC X) (constant (F := Ideal) S_ .f32 0x7F800000#32) reducesTo_S20x256x128x128_S20x256x128_d2 h_S_) (constant (F := Ideal) S_ .f32 0x7F800000#32) reducesTo_S20x256x128_S256x128_d0 h_S_

/-- The composition through its stages. -/
theorem refHead_eq_stages (X : FVec Ideal S20x32768x2 .f32) :
    refHead X = broadcastInDim S32768x1 ![0] bcast_S32768_S32768x1_0
      (subf (F := Ideal) (broadcastInDim S32768 ![] bcast_S_S32768 (constant (F := Ideal) S_ .f32 0x3F800000#32))
        (shapeCast S32768 (uitofp (F := Ideal) .f32 (cmpf (F := Ideal) .olt (sM X)
          (broadcastInDim S256x128 ![] bcast_S_S256x128 (constant (F := Ideal) S_ .f32 0x3E800000#32)))) shapeCasts_S256x128_S32768)) := rfl

/-! ## The reduced axes' index insertions -/

theorem red4 : S20x256x128x128x2.Reduces [4] S20x256x128x128 := by decide
theorem red2 : S20x256x128x128.Reduces [2] S20x256x128 := by decide
theorem red0 : S20x256x128.Reduces [0] S256x128 := by decide

theorem lift4 (t : Fin 20) (s : Fin 256) (p q : Fin 128) (c : Fin 2) : red4.lift (ix4 t s p q) c = ix5 t s p q c :=
  funext fun a => Fin.ext (by match a with | ⟨0, _⟩ => rfl | ⟨1, _⟩ => rfl | ⟨2, _⟩ => rfl | ⟨3, _⟩ => rfl | ⟨4, _⟩ => rfl)
theorem lift2 (t : Fin 20) (s : Fin 256) (p q : Fin 128) : red2.lift (ix3 t s q) p = ix4 t s p q :=
  funext fun a => Fin.ext (by match a with | ⟨0, _⟩ => rfl | ⟨1, _⟩ => rfl | ⟨2, _⟩ => rfl | ⟨3, _⟩ => rfl)
theorem lift0 (t : Fin 20) (s : Fin 256) (q : Fin 128) : red0.lift (ix2 s q) t = ix3 t s q :=
  funext fun a => Fin.ext (by match a with | ⟨0, _⟩ => rfl | ⟨1, _⟩ => rfl | ⟨2, _⟩ => rfl)

/-! ## Each stage at an index -/

/-- The split array at (time, scene, pedestrian, coordinate) is the array at the pedestrian's flat position. -/
theorem sX_apply (X : FVec Ideal S20x32768x2 .f32) (t : Fin 20) (s : Fin 256) (p : Fin 128) (c : Fin 2) :
    sX X (ix4 t s p c) = X (ix3 t (Collide.ped s p) c) :=
  shapeCast_apply X _ (ix4 t s p c) (ix3 t (Collide.ped s p) c) (by
    rw [Shape.rowMajor_val_three, Shape.rowMajor_val_four]
    show (t.val * 32768 + (s.val * 128 + p.val)) * 2 + c.val = ((t.val * 256 + s.val) * 128 + p.val) * 2 + c.val
    omega)

/-- The first broadcast pair places pedestrian `p`. -/
theorem bP_apply (Y : FVec Ideal S20x256x128x2 .f32) (t : Fin 20) (s : Fin 256) (p q : Fin 128) (c : Fin 2) :
    (broadcastInDim S20x256x128x128x2 ![0, 1, 2, 3, 4] bcast_S20x256x128x1x2_S20x256x128x128x2_0_1_2_3_4 (broadcastInDim S20x256x128x1x2 ![0, 1, 2, 4] bcast_S20x256x128x2_S20x256x128x1x2_0_1_2_4 Y)) (ix5 t s p q c) = Y (ix4 t s p c) :=
  (broadcastInDim_apply _ _ _ (ix5 t s p q c) (ix5 t s p (0 : Fin 1) c) (fun a => by
    match a with | ⟨0, _⟩ => rfl | ⟨1, _⟩ => rfl | ⟨2, _⟩ => rfl | ⟨3, _⟩ => rfl | ⟨4, _⟩ => rfl)).trans
  (broadcastInDim_apply _ _ _ (ix5 t s p (0 : Fin 1) c) (ix4 t s p c) (fun a => by
    match a with | ⟨0, _⟩ => rfl | ⟨1, _⟩ => rfl | ⟨2, _⟩ => rfl | ⟨3, _⟩ => rfl))

/-- The second broadcast pair places pedestrian `q`. -/
theorem bQ_apply (Y : FVec Ideal S20x256x128x2 .f32) (t : Fin 20) (s : Fin 256) (p q : Fin 128) (c : Fin 2) :
    (broadcastInDim S20x256x128x128x2 ![0, 1, 2, 3, 4] bcast_S20x256x1x128x2_S20x256x128x128x2_0_1_2_3_4 (broadcastInDim S20x256x1x128x2 ![0, 1, 3, 4] bcast_S20x256x128x2_S20x256x1x128x2_0_1_3_4 Y)) (ix5 t s p q c) = Y (ix4 t s q c) :=
  (broadcastInDim_apply _ _ _ (ix5 t s p q c) (ix5 t s (0 : Fin 1) q c) (fun a => by
    match a with | ⟨0, _⟩ => rfl | ⟨1, _⟩ => rfl | ⟨2, _⟩ => rfl | ⟨3, _⟩ => rfl | ⟨4, _⟩ => rfl)).trans
  (broadcastInDim_apply _ _ _ (ix5 t s (0 : Fin 1) q c) (ix4 t s q c) (fun a => by
    match a with | ⟨0, _⟩ => rfl | ⟨1, _⟩ => rfl | ⟨2, _⟩ => rfl | ⟨3, _⟩ => rfl))

/-- The difference of the two pedestrians' coordinates. -/
theorem sD_apply (X : FVec Ideal S20x32768x2 .f32) (t : Fin 20) (s : Fin 256) (p q : Fin 128) (c : Fin 2) :
    sD X (ix5 t s p q c) = X (ix3 t (Collide.ped s p) c) - X (ix3 t (Collide.ped s q) c) := by
  show (broadcastInDim S20x256x128x128x2 ![0, 1, 2, 3, 4] bcast_S20x256x128x1x2_S20x256x128x128x2_0_1_2_3_4 (broadcastInDim S20x256x128x1x2 ![0, 1, 2, 4] bcast_S20x256x128x2_S20x256x128x1x2_0_1_2_4 (sX X))) (ix5 t s p q c) - (broadcastInDim S20x256x128x128x2 ![0, 1, 2, 3, 4] bcast_S20x256x1x128x2_S20x256x128x128x2_0_1_2_3_4 (broadcastInDim S20x256x1x128x2 ![0, 1, 3, 4] bcast_S20x256x128x2_S20x256x1x128x2_0_1_3_4 (sX X))) (ix5 t s p q c) = _
  rw [bP_apply, bQ_apply, sX_apply, sX_apply]

/-- The distance: the root of the two squared differences' sum. -/
theorem sN_apply (X : FVec Ideal S20x32768x2 .f32) (t : Fin 20) (s : Fin 256) (p q : Fin 128) :
    sN X (ix4 t s p q) = Collide.norm2 (X (ix3 t (Collide.ped s p) 0) - X (ix3 t (Collide.ped s q) 0))
      (X (ix3 t (Collide.ped s p) 1) - X (ix3 t (Collide.ped s q) 1)) := by
  show Ideal.sqrt (Ideal.hostReduceAdd reducesTo_S20x256x128x128x2_S20x256x128x128_d4 (mulf (F := Ideal) (sD X) (sD X))
    (Ideal.ofBits .f32 0x00000000#32) (ix4 t s p q)) = _
  refine congrArg Ideal.sqrt ?_
  refine (Ideal.hostReduceAdd_single _ red4 _ _ (ix4 t s p q)).trans ?_
  show Ideal.ofBits .f32 0x00000000#32 + ∑ c : Fin 2, mulf (F := Ideal) (sD X) (sD X) (red4.lift (ix4 t s p q) c) = _
  rw [Fin.sum_univ_two, Ideal.ofBits_zero_f32, zero_add, lift4, lift4]
  show sD X (ix5 t s p q 0) * sD X (ix5 t s p q 0) + sD X (ix5 t s p q 1) * sD X (ix5 t s p q 1) = _
  rw [sD_apply, sD_apply]

/-- A select on an equality test is the `if`. -/
theorem select_cmp_oeq (x y a b : EReal) : Scalar.select (Ideal.cmp .oeq x y) a b = if x = y then a else b := by
  unfold Ideal.cmp Scalar.select
  by_cases h : x = y <;> simp [h]

/-- The distance with a zero replaced by the threshold. -/
theorem sC_apply (X : FVec Ideal S20x32768x2 .f32) (t : Fin 20) (s : Fin 256) (p q : Fin 128) :
    sC X (ix4 t s p q) = Collide.dist X t s p q := by
  show Scalar.select (Ideal.cmp .oeq (sN X (ix4 t s p q)) (Ideal.ofBits .f32 0x00000000#32))
    (Ideal.ofBits .f32 0x3E800000#32) (sN X (ix4 t s p q)) = _
  rw [select_cmp_oeq, sN_apply]
  rfl

/-- The two minima: over the first pedestrian and over time — the least distance from the second pedestrian. -/
theorem sM_apply (X : FVec Ideal S20x32768x2 .f32) (s : Fin 256) (q : Fin 128) :
    sM X (ix2 s q) = Collide.nearest X s q := by
  refine (LibMinReduce.hostReduce_minimumf_single (u := S_) _ reducesTo_S20x256x128_S256x128_d0 red0 h_S_ (ix2 s q)).trans ?_
  rw [← Collide.nearest_eq_first]
  show (⨅ t : Fin 20, Host.reduce (FloatOps.minimumf (F := Ideal) (φ := .f32)) (sC X) (constant (F := Ideal) S_ .f32 0x7F800000#32)
    reducesTo_S20x256x128x128_S20x256x128_d2 h_S_ (red0.lift (ix2 s q) t)) = _
  refine iInf_congr fun t => ?_
  rw [lift0]
  refine (LibMinReduce.hostReduce_minimumf_single (u := S_) _ reducesTo_S20x256x128x128_S20x256x128_d2 red2 h_S_ (ix3 t s q)).trans ?_
  show (⨅ p : Fin 128, sC X (red2.lift (ix3 t s q) p)) = _
  refine iInf_congr fun p => ?_
  rw [lift2, sC_apply]

/-! ## The column -/

/-- A broadcast scalar constant reads the constant everywhere. -/
theorem bcast0_apply {s : Shape} (h : S_.BroadcastsInDim s (![] : Fin 0 → Fin s.rank)) (w : BitVec 32) (i : s.Idx) :
    broadcastInDim s ![] h (constant (F := Ideal) S_ .f32 w) i = Ideal.ofBits .f32 w := rfl

/-- A one-bit word converted to a float at an index is the indicator of the bit there. -/
theorem uitofp_apply {s : Shape} (x : IVec s 1) (i : s.Idx) : uitofp (F := Ideal) .f32 x i = Collide.ind (x i) := rfl

/-- The reference's reward column is the reward column. -/
theorem refHead_eq (X : FVec Ideal S20x32768x2 .f32) : refHead X = Collide.rewardCol X := by
  funext i
  obtain ⟨b, z, rfl⟩ : ∃ (b : Fin 32768) (z : Fin 1), i = ix2 b z := ⟨i 0, i 1, eq_ix2 i⟩
  rw [refHead_eq_stages]
  refine (broadcastInDim_apply _ _ _ (ix2 b z) (ix1 b) (fun a => by match a with | ⟨0, _⟩ => rfl)).trans ?_
  show Ideal.ofBits .f32 0x3F800000#32 - shapeCast S32768 (uitofp (F := Ideal) .f32 (cmpf (F := Ideal) .olt (sM X)
    (broadcastInDim S256x128 ![] bcast_S_S256x128 (constant (F := Ideal) S_ .f32 0x3E800000#32)))) shapeCasts_S256x128_S32768 (ix1 b) = _
  rw [shapeCast_apply _ shapeCasts_S256x128_S32768 (ix1 b)
    (ix2 (⟨b.val / 128, by omega⟩ : Fin 256) (⟨b.val % 128, by omega⟩ : Fin 128)) (by
      rw [Shape.rowMajor_val_two, Shape.rowMajor_val_one]
      show b.val / 128 * 128 + b.val % 128 = b.val
      omega)]
  rw [uitofp_apply, cmpf_apply, bcast0_apply, sM_apply]
  rfl

end Cert.ReferenceIdeal.RefHead

end
-- ==== Proof.TailR.lean ====
/-
  The reference program after its reward column: the fold of its remaining operations over any buffer contents, read at the
  result buffer, is the two layers of `TailDef.tail` applied to the column and to the eight parameter arrays; and the
  fold of the whole program is the fold of that remainder over the fold of the operations before it.
-/
import proofs.«115439_j82222853915257_2_alg».proof.Proof.Tail
import proofs.«115439_j82222853915257_2_alg».proof.Proof.Gen.KernelIdeal
import proofs.«115439_j82222853915257_2_alg».proof.Proof.RefRun

noncomputable section

namespace Cert.ReferenceIdeal.TailR

open Idealize.ShloMosaic Idealize.SL.Sem Cert.ReferenceIdeal

/-- A fold over two lists in a row is the fold of the second over the fold of the first. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- The whole program's fold, cut where the reward column is complete. -/
theorem after_ops (W : Valuation τ sig (Elt Ideal)) (b : DevRef τ sig) :
    StableHlo.after (RefRun.ops (F := Ideal)) W b = StableHlo.after RefRun.opsTail (StableHlo.after RefRun.opsHead W) b := by
  rw [show (RefRun.ops (F := Ideal)) = RefRun.opsHead ++ RefRun.opsTail from rfl, after_append]

set_option maxHeartbeats 2000000 in
/-- Every operation of the reference program after its reward column, in order, composes to `TailDef.tail`: each buffer
    is written once, by the operation that defines its value, and read by the later operations that name it, so the fold
    at the result is the composition of the operations' functions. The shapes and shape relations of the two programs
    are the same literals, so the composition is the kernel program's, term for term. -/
theorem tailR (W : Valuation τ sig (Elt Ideal)) :
    StableHlo.after (RefRun.opsTail (F := Ideal)) W (Proc.devRef .tc main_v68)
      = Cert.KernelIdeal.TailDef.tail (W (Proc.devRef .tc main_v20))
          (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  simp only [RefRun.opsTail, RefRun.tail1, RefRun.tail2, RefRun.tail3, RefRun.tail4, RefRun.tail5, RefRun.tail6, RefRun.tail7,
    RefRun.tail8, List.append_assoc, List.cons_append, List.nil_append]
  after_results_simp
  rfl

end Cert.ReferenceIdeal.TailR

end
-- ==== Proof.RefValue.lean ====
/-
  The idealized reference program's result: the two layers of `TailDef.tail` applied to the reward column of the
  launched trajectory and to the eight parameter arrays.

  The program's fold of operations is cut where the reward column is complete. Up to there the fold, read at the
  column's buffer, is the reference's own composition of operations, which index by index is the reward column
  (`RefHead.refHead_eq`); no operation up to there writes a parameter array; from there on the fold is `TailDef.tail`.
-/
import proofs.«115439_j82222853915257_2_alg».proof.Proof.RefRun
import proofs.«115439_j82222853915257_2_alg».proof.Proof.RefHead
import proofs.«115439_j82222853915257_2_alg».proof.Proof.TailR

noncomputable section

namespace Cert.ReferenceIdeal.RefValue

open Cert.ReferenceIdeal Idealize.ShloMosaic Idealize.ShloMosaic.TcCoe Idealize.SL.Sem Idealize.ShloMosaic.StableHlo

attribute [local instance] Cert.ReferenceIdeal.Gen.facts
attribute [local instance] Cert.KernelIdeal.Gen.facts

set_option maxHeartbeats 4000000 in
/-- The operations up to the reward column compose to the reference's own term, which is the reward column. -/
theorem head_eq (W : Valuation τ sig (Elt Ideal)) :
    StableHlo.after (RefRun.opsHead (F := Ideal)) W (Proc.devRef .tc main_v20)
      = Cert.Collide.rewardCol (W (Proc.devRef .tc main_arg0)) := by
  refine Eq.trans ?_ (RefHead.refHead_eq _)
  after_results
  rfl

/-- A buffer that differs, as a reference, from the buffer each operation writes is left alone by the fold. -/
local macro "head_kept" : tactic =>
  `(tactic| exact StableHlo.after_of_forall_not_mem _ _ (List.forall_iff_forall_mem.mp (by
      simp only [RefRun.opsHead, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

theorem head_kept_main_arg3 (W : Valuation τ sig (Elt Ideal)) :
    StableHlo.after (RefRun.opsHead (F := Ideal)) W (Proc.devRef .tc main_arg3) = W (Proc.devRef .tc main_arg3) := by head_kept
theorem head_kept_main_arg4 (W : Valuation τ sig (Elt Ideal)) :
    StableHlo.after (RefRun.opsHead (F := Ideal)) W (Proc.devRef .tc main_arg4) = W (Proc.devRef .tc main_arg4) := by head_kept
theorem head_kept_main_arg5 (W : Valuation τ sig (Elt Ideal)) :
    StableHlo.after (RefRun.opsHead (F := Ideal)) W (Proc.devRef .tc main_arg5) = W (Proc.devRef .tc main_arg5) := by head_kept
theorem head_kept_main_arg6 (W : Valuation τ sig (Elt Ideal)) :
    StableHlo.after (RefRun.opsHead (F := Ideal)) W (Proc.devRef .tc main_arg6) = W (Proc.devRef .tc main_arg6) := by head_kept
theorem head_kept_main_arg7 (W : Valuation τ sig (Elt Ideal)) :
    StableHlo.after (RefRun.opsHead (F := Ideal)) W (Proc.devRef .tc main_arg7) = W (Proc.devRef .tc main_arg7) := by head_kept
theorem head_kept_main_arg8 (W : Valuation τ sig (Elt Ideal)) :
    StableHlo.after (RefRun.opsHead (F := Ideal)) W (Proc.devRef .tc main_arg8) = W (Proc.devRef .tc main_arg8) := by head_kept
theorem head_kept_main_arg9 (W : Valuation τ sig (Elt Ideal)) :
    StableHlo.after (RefRun.opsHead (F := Ideal)) W (Proc.devRef .tc main_arg9) = W (Proc.devRef .tc main_arg9) := by head_kept
theorem head_kept_main_arg10 (W : Valuation τ sig (Elt Ideal)) :
    StableHlo.after (RefRun.opsHead (F := Ideal)) W (Proc.devRef .tc main_arg10) = W (Proc.devRef .tc main_arg10) := by head_kept

/-- The whole program's fold at the result buffer. -/
theorem result_eq (W : Valuation τ sig (Elt Ideal)) :
    StableHlo.after (RefRun.ops (F := Ideal)) W (Proc.devRef .tc main_v68)
      = Cert.KernelIdeal.TailDef.tail (Cert.Collide.rewardCol (W (Proc.devRef .tc main_arg0)))
          (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  rw [TailR.after_ops, TailR.tailR, head_eq, head_kept_main_arg3, head_kept_main_arg4, head_kept_main_arg5, head_kept_main_arg6, head_kept_main_arg7, head_kept_main_arg8, head_kept_main_arg9, head_kept_main_arg10]

end Cert.ReferenceIdeal.RefValue

end
-- ==== Proof.lean ====
/-
  The five claims of the certificate.

  The three programs run to the end and leave their eleven argument arrays unchanged: for the two kernel programs
  by the frame run of the pipelined region between the host lines before it and the host lines after it (the body,
  through its loop over time, proved once for any float instance); for the reference by reading its straight line of
  host operations. The idealization rewrote nothing, so `preserves` is empty. And on the extended reals the two
  idealized programs compute one function: the kernel's pipelined region and the reference's broadcast-and-reduce
  both produce the reward column of the trajectory — 1 minus the indicator that a pedestrian's least distance to a
  partner of its scene, over all times, a zero distance replaced by the threshold, is below the threshold; the kernel
  takes the least distance over the second pedestrian of a pair and the reference over the first, which agree
  because a difference and its opposite have one square — and both then apply the same two layers to it.
-/
import proofs.«115439_j82222853915257_2_alg».proof.Defs
import proofs.«115439_j82222853915257_2_alg».proof.Proof.BodyK
import proofs.«115439_j82222853915257_2_alg».proof.Proof.RunKI
import proofs.«115439_j82222853915257_2_alg».proof.Proof.RefRun
import proofs.«115439_j82222853915257_2_alg».proof.Proof.RefValue
import proofs.«115439_j82222853915257_2_alg».proof.Proof.Gen.Kernel
import proofs.«115439_j82222853915257_2_alg».proof.Proof.Gen.KernelIdeal
import proofs.«115439_j82222853915257_2_alg».proof.Proof.Gen.ReferenceIdeal
import proofs.«115439_j82222853915257_2_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Body.frame (F := Bits) m ρ
theorem frame_ki : Cert.frame_KernelIdeal := fun m ρ _ => Cert.KernelIdeal.Body.frame (F := Ideal) m ρ
theorem frame_ri : Cert.frame_ReferenceIdeal := fun m ρ _ => Cert.ReferenceIdeal.RefRun.frame (F := Ideal) m ρ

/-- The ideal pass rewrote no operation. -/
theorem preserves : Cert.preserves_Kernel_KernelIdeal := trivial

/-- From memories that agree on the arguments both idealized programs end with the two layers of the reward column
    of the trajectory. -/
theorem algebraic : Cert.algebraic_KernelIdeal_ReferenceIdeal := by
  intro m ρ m' ρ' _ hagree
  refine ⟨fun c => Cert.KernelIdeal.TailDef.tail (Cert.Collide.rewardCol (m ((c.tc : Thread Cert.KernelIdeal.nD Cert.KernelIdeal.τ).loc Cert.KernelIdeal.main_arg0)))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.KernelIdeal.Run.run m ρ, ?_⟩
  refine (θ_run Cert.ReferenceIdeal.defs _ _).mono (fun _ h c => ⟨?_,
      (h c Cert.ReferenceIdeal.main_arg0).trans (Cert.ReferenceIdeal.RefRun.kept_arg0 _),
      (h c Cert.ReferenceIdeal.main_arg1).trans (Cert.ReferenceIdeal.RefRun.kept_arg1 _),
      (h c Cert.ReferenceIdeal.main_arg2).trans (Cert.ReferenceIdeal.RefRun.kept_arg2 _),
      (h c Cert.ReferenceIdeal.main_arg3).trans (Cert.ReferenceIdeal.RefRun.kept_arg3 _),
      (h c Cert.ReferenceIdeal.main_arg4).trans (Cert.ReferenceIdeal.RefRun.kept_arg4 _),
      (h c Cert.ReferenceIdeal.main_arg5).trans (Cert.ReferenceIdeal.RefRun.kept_arg5 _),
      (h c Cert.ReferenceIdeal.main_arg6).trans (Cert.ReferenceIdeal.RefRun.kept_arg6 _),
      (h c Cert.ReferenceIdeal.main_arg7).trans (Cert.ReferenceIdeal.RefRun.kept_arg7 _),
      (h c Cert.ReferenceIdeal.main_arg8).trans (Cert.ReferenceIdeal.RefRun.kept_arg8 _),
      (h c Cert.ReferenceIdeal.main_arg9).trans (Cert.ReferenceIdeal.RefRun.kept_arg9 _),
      (h c Cert.ReferenceIdeal.main_arg10).trans (Cert.ReferenceIdeal.RefRun.kept_arg10 _)⟩)
    (Cert.ReferenceIdeal.RefRun.run_all (F := Ideal) m' ρ')
  obtain ⟨e0, -, -, e3, e4, e5, e6, e7, e8, e9, e10⟩ := hagree c
  refine (h c Cert.ReferenceIdeal.main_v68).trans ((Cert.ReferenceIdeal.RefValue.result_eq _).trans ?_)
  show Cert.KernelIdeal.TailDef.tail (Cert.Collide.rewardCol (m' ((c.tc : Thread Cert.ReferenceIdeal.nD Cert.ReferenceIdeal.τ).loc Cert.ReferenceIdeal.main_arg0)))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = _
  rw [e0, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
